-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x32x4 : Shape := ⟨3, ![200000, 32, 4]⟩
abbrev S200000 : Shape := ⟨1, ![200000]⟩
abbrev S200000x4 : Shape := ⟨2, ![200000, 4]⟩
abbrev S5x16 : Shape := ⟨2, ![5, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S200000x32x4 : S_.BroadcastsInDim S200000x32x4 (![] : Fin 0 → Fin S200000x32x4.rank)
  reducesTo_S200000x32x4_S_d0_1_2 : S200000x32x4.ReducesTo [0, 1, 2] S_
  h_S_ : 0 < S_.numel
  bcast_S_S5x16 : S_.BroadcastsInDim S5x16 (![] : Fin 0 → Fin S5x16.rank)
  reducesTo_S5x16_S_d0_1 : S5x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_
  bcast_S_S200000 : S_.BroadcastsInDim S200000 (![] : Fin 0 → Fin S200000.rank)
  reducesTo_S200000_S_d0 : S200000.ReducesTo [0] S_

variable [Facts]

def fn_part1 {F : FTy → Type} [FloatOps F] (main_arg1 : IVec S200000 32) (main_arg6 : FVec F S1 .f32) (main_v13 : IVec S_ 1) (main_v16 : IVec S16x1 1) : IVec S_ 1 :=
  let main_c_5 : IVec S_ 1 := constantI S_ 1 1#1
  let main_v17 : IVec S_ 1 := (fun x v => Host.reduce IntOp.andi x v reducesTo_S16x1_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_c_8 : IVec S_ 32 := constantI S_ 32 0#32
  let main_v24 : IVec S200000 32 := broadcastInDim S200000 ![] bcast_S_S200000 main_c_8
  let main_v25 : IVec S200000 1 := cmpi .sge main_arg1 main_v24
  let main_c_9 : IVec S_ 32 := constantI S_ 32 32#32
  let main_v26 : IVec S200000 32 := broadcastInDim S200000 ![] bcast_S_S200000 main_c_9
  let main_v27 : IVec S200000 1 := cmpi .sle main_arg1 main_v26
  let main_v28 : IVec S200000 1 := andi main_v25 main_v27
  let main_c_10 : IVec S_ 1 := constantI S_ 1 1#1
  let main_v29 : IVec S_ 1 := (fun x v => Host.reduce IntOp.andi x v reducesTo_S200000_S_d0 h_S_) main_v28 main_c_10
  let main_v30 : IVec S_ 1 := andi main_v23 main_v29
  main_v30

def fn {F : FTy → Type} [FloatOps F] (main_arg0 : FVec F S200000x32x4 .f32) (main_arg1 : IVec S200000 32) (main_arg2 : IVec S200000x4 32) (main_arg3 : FVec F S5x16 .f32) (main_arg4 : FVec F S16 .f32) (main_arg5 : FVec F S16x1 .f32) (main_arg6 : FVec F S1 .f32) : IVec S_ 1 :=
  let main_v0 : FVec F S200000x32x4 .f32 := Host.absf main_arg0
  let main_cst : FVec F S_ .f32 := constant S_ .f32 0x7F800000#32
  let main_v1 : FVec F S200000x32x4 .f32 := broadcastInDim S200000x32x4 ![] bcast_S_S200000x32x4 main_cst
  let main_v2 : IVec S200000x32x4 1 := cmpf .olt main_v0 main_v1
  let main_c : IVec S_ 1 := constantI S_ 1 1#1
  let main_v3 : IVec S_ 1 := (fun x v => Host.reduce IntOp.andi x v reducesTo_S200000x32x4_S_d0_1_2 h_S_) main_v2 main_c
  let main_v4 : FVec F S5x16 .f32 := Host.absf main_arg3
  let main_cst_0 : FVec F S_ .f32 := constant S_ .f32 0x7F800000#32
  let main_v5 : FVec F S5x16 .f32 := broadcastInDim S5x16 ![] bcast_S_S5x16 main_cst_0
  let main_v6 : IVec S5x16 1 := cmpf .olt main_v4 main_v5
  let main_c_1 : IVec S_ 1 := constantI S_ 1 1#1
  let main_v7 : IVec S_ 1 := (fun x v => Host.reduce IntOp.andi x v reducesTo_S5x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x1 .f32 := Host.absf main_arg5
  let main_cst_4 : FVec F S_ .f32 := constant S_ .f32 0x7F800000#32
  let main_v15 : FVec F S16x1 .f32 := broadcastInDim S16x1 ![] bcast_S_S16x1 main_cst_4
  let main_v16 : IVec S16x1 1 := cmpf .olt main_v14 main_v15
  fn_part1 (F := F) main_arg1 main_arg6 main_v13 main_v16
-- ==== Kernel.lean ====
abbrev S200000x32x4 : Shape := ⟨3, ![200000, 32, 4]⟩
abbrev S200000 : Shape := ⟨1, ![200000]⟩
abbrev S200000x4 : Shape := ⟨2, ![200000, 4]⟩
abbrev S5x16 : Shape := ⟨2, ![5, 16]⟩
abbrev S16 : Shape := ⟨1, ![16]⟩
abbrev S16x1 : Shape := ⟨2, ![16, 1]⟩
abbrev S1 : Shape := ⟨1, ![1]⟩
abbrev S128x4 : Shape := ⟨2, ![128, 4]⟩
abbrev S200000x128 : Shape := ⟨2, ![200000, 128]⟩
abbrev S200000x1 : Shape := ⟨2, ![200000, 1]⟩
abbrev S1x16 : Shape := ⟨2, ![1, 16]⟩
abbrev S1x1 : Shape := ⟨2, ![1, 1]⟩
abbrev S4000x128 : Shape := ⟨2, ![4000, 128]⟩
abbrev S4000x1 : Shape := ⟨2, ![4000, 1]⟩
abbrev S4000x4 : Shape := ⟨2, ![4000, 4]⟩
abbrev S4000x3 : Shape := ⟨2, ![4000, 3]⟩
abbrev S4000 : Shape := ⟨1, ![4000]⟩
abbrev S4000x5 : Shape := ⟨2, ![4000, 5]⟩
abbrev S4000x16 : Shape := ⟨2, ![4000, 16]⟩

abbrev nBuf : Space → Nat
  | .hbm => 13
  | .vmem => 11
  | .smem => 0
  | _ => 0

abbrev bufTy : (tb : Table) → Fin (tcTables nBuf tb) → BufTy
  | .hbm, ⟨0, _⟩ => ⟨S200000x32x4, .f32⟩
  | .hbm, ⟨1, _⟩ => ⟨S200000, .i32⟩
  | .hbm, ⟨2, _⟩ => ⟨S200000x4, .i32⟩
  | .hbm, ⟨3, _⟩ => ⟨S5x16, .f32⟩
  | .hbm, ⟨4, _⟩ => ⟨S16, .f32⟩
  | .hbm, ⟨5, _⟩ => ⟨S16x1, .f32⟩
  | .hbm, ⟨6, _⟩ => ⟨S1, .f32⟩
  | .hbm, ⟨7, _⟩ => ⟨S128x4, .f32⟩
  | .hbm, ⟨8, _⟩ => ⟨S200000x128, .f32⟩
  | .hbm, ⟨9, _⟩ => ⟨S200000x1, .i32⟩
  | .hbm, ⟨10, _⟩ => ⟨S1x16, .f32⟩
  | .hbm, ⟨11, _⟩ => ⟨S1x1, .f32⟩
  | .hbm, ⟨12, _⟩ => ⟨S200000x1, .f32⟩
  | .local _ .vmem, ⟨0, _⟩ => ⟨S4000x128, .f32⟩
  | .local _ .vmem, ⟨1, _⟩ => ⟨S4000x128, .f32⟩
  | .local _ .vmem, ⟨2, _⟩ => ⟨S4000x1, .i32⟩
  | .local _ .vmem, ⟨3, _⟩ => ⟨S4000x1, .i32⟩
  | .local _ .vmem, ⟨4, _⟩ => ⟨S128x4, .f32⟩
  | .local _ .vmem, ⟨5, _⟩ => ⟨S5x16, .f32⟩
  | .local _ .vmem, ⟨6, _⟩ => ⟨S1x16, .f32⟩
  | .local _ .vmem, ⟨7, _⟩ => ⟨S16x1, .f32⟩
  | .local _ .vmem, ⟨8, _⟩ => ⟨S1x1, .f32⟩
  | .local _ .vmem, ⟨9, _⟩ => ⟨S4000x1, .f32⟩
  | .local _ .vmem, ⟨10, _⟩ => ⟨S4000x1, .f32⟩
  | _, _ => ⟨S200000x32x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S200000x32x4_S200000x128 : S200000x32x4.ShapeCasts S200000x128
  shapeCasts_S200000_S200000x1 : S200000.ShapeCasts S200000x1
  shapeCasts_S16_S1x16 : S16.ShapeCasts S1x16
  shapeCasts_S1_S1x1 : S1.ShapeCasts S1x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S128x4_S128x4_0_0 : ∀ a, (![0, 0] : Fin 2 → Nat) a + S128x4.size a ≤ S128x4.size a
  h_S128x4 : 0 < S128x4.numel
  iota_S4000x128_d1_w32 : S4000x128.Iotas .tc 32 [1]
  broadcasts_S4000x1_S4000x128 : S4000x1.Broadcasts S4000x128
  natLt_1_32 : 1 < 32
  broadcasts_S4000x1_S4000x4 : S4000x1.Broadcasts S4000x4
  slices_S4000x4_o0_0_S4000x3 : S4000x4.Slices ![0, 0] S4000x3
  reduces_S4000x3_S4000 : S4000x3.Reduces [1] S4000
  shapeCasts_S4000_S4000x1 : S4000.ShapeCasts S4000x1
  concatenates_S4000x1_S4000x1_S4000x3_S4000x5_d1 : Shape.Concatenates [S4000x1, S4000x1, S4000x3] S4000x5 1
  inb_S5x16_S5x16_0_0 : ∀ a, (![0, 0] : Fin 2 → Nat) a + S5x16.size a ≤ S5x16.size a
  h_S5x16 : 0 < S5x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  dot_S4000x128_S128x4_S4000x4_1_0_0_1_n_n_wf : DotDims.WF S4000x128 S128x4 S4000x4 [1] [0] [0] [1] [] []
  dot_S4000x5_S5x16_S4000x16_1_0_0_1_n_n_wf : DotDims.WF S4000x5 S5x16 S4000x16 [1] [0] [0] [1] [] []
  dot_S4000x16_S16x1_S4000x1_1_0_0_1_n_n_wf : DotDims.WF S4000x16 S16x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S200000x128.size a
  hwx0_0 : ∀ i : grid0.Coords, EltTy.bits .f32 = 32 ∨ (Rect.block (s := S200000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S200000x1.size a
  hwx0_1 : ∀ i : grid0.Coords, EltTy.bits .i32 = 32 ∨ (Rect.block (s := S200000x1) S4000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x4.size a ≤ S128x4.size a
  hwx0_2 : ∀ i : grid0.Coords, EltTy.bits .f32 = 32 ∨ (Rect.block (s := S128x4) S128x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x16.size a ≤ S5x16.size a
  hwx0_3 : ∀ i : grid0.Coords, EltTy.bits .f32 = 32 ∨ (Rect.block (s := S5x16) S5x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x1.size a ≤ S16x1.size a
  hwx0_5 : ∀ i : grid0.Coords, EltTy.bits .f32 = 32 ∨ (Rect.block (s := S16x1) S16x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x1.size a ≤ S200000x1.size a
  hwx0_7 : ∀ i : grid0.Coords, EltTy.bits .f32 = 32 ∨ (Rect.block (s := S200000x1) S4000x1.size (cc0_transform_7 i) (hinb0_7 i)).WholeWords (EltTy.packing .f32)

variable [Facts₀]

def dot_S4000x128_S128x4_S4000x4_1_0_0_1_n_n : DotDims S4000x128 S128x4 S4000x4 where
  lhsContracting := [1]
  rhsContracting := [0]
  lhsNonContracting := [0]
  rhsNonContracting := [1]
  lhsBatch := []
  rhsBatch := []
  wf := dot_S4000x128_S128x4_S4000x4_1_0_0_1_n_n_wf
def dot_S4000x5_S5x16_S4000x16_1_0_0_1_n_n : DotDims S4000x5 S5x16 S4000x16 where
  lhsContracting := [1]
  rhsContracting := [0]
  lhsNonContracting := [0]
  rhsNonContracting := [1]
  lhsBatch := []
  rhsBatch := []
  wf := dot_S4000x5_S5x16_S4000x16_1_0_0_1_n_n_wf
def dot_S4000x16_S16x1_S4000x1_1_0_0_1_n_n : DotDims S4000x16 S16x1 S4000x1 where
  lhsContracting := [1]
  rhsContracting := [0]
  lhsNonContracting := [0]
  rhsNonContracting := [1]
  lhsBatch := []
  rhsBatch := []
  wf := dot_S4000x16_S16x1_S4000x1_1_0_0_1_n_n_wf

abbrev win0_0 : Pipeline.Window sig grid0 :=
  Pipeline.Window.ofSpec (Memref.whole main_v0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_cst) S128x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S5x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S16x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S4000x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S200000x32x4 : Shape := ⟨3, ![200000, 32, 4]⟩
abbrev S200000 : Shape := ⟨1, ![200000]⟩
abbrev S200000x4 : Shape := ⟨2, ![200000, 4]⟩
abbrev S5x16 : Shape := ⟨2, ![5, 16]⟩
abbrev S16 : Shape := ⟨1, ![16]⟩
abbrev S16x1 : Shape := ⟨2, ![16, 1]⟩
abbrev S1 : Shape := ⟨1, ![1]⟩
abbrev S_ : Shape := ⟨0, ![]⟩
abbrev S200000x1 : Shape := ⟨2, ![200000, 1]⟩
abbrev S200000x32x3 : Shape := ⟨3, ![200000, 32, 3]⟩
abbrev S32 : Shape := ⟨1, ![32]⟩
abbrev S1x32 : Shape := ⟨2, ![1, 32]⟩
abbrev S200000x32 : Shape := ⟨2, ![200000, 32]⟩
abbrev S200000x32x1 : Shape := ⟨3, ![200000, 32, 1]⟩
abbrev S200000x3 : Shape := ⟨2, ![200000, 3]⟩
abbrev S200000x1x3 : Shape := ⟨3, ![200000, 1, 3]⟩
abbrev S200000x5 : Shape := ⟨2, ![200000, 5]⟩
abbrev S200000x16 : Shape := ⟨2, ![200000, 16]⟩
abbrev S1x16 : Shape := ⟨2, ![1, 16]⟩
abbrev S1x1 : Shape := ⟨2, ![1, 1]⟩

abbrev nBuf : Space → Nat
  | .hbm => 76
  | .vmem => 0
  | .smem => 0
  | _ => 0

abbrev bufTy : (tb : Table) → Fin (tcTables nBuf tb) → BufTy
  | .hbm, ⟨0, _⟩ => ⟨S200000x32x4, .f32⟩
  | .hbm, ⟨1, _⟩ => ⟨S200000, .i32⟩
  | .hbm, ⟨2, _⟩ => ⟨S200000x4, .i32⟩
  | .hbm, ⟨3, _⟩ => ⟨S5x16, .f32⟩
  | .hbm, ⟨4, _⟩ => ⟨S16, .f32⟩
  | .hbm, ⟨5, _⟩ => ⟨S16x1, .f32⟩
  | .hbm, ⟨6, _⟩ => ⟨S1, .f32⟩
  | .hbm, ⟨7, _⟩ => ⟨S200000, .f32⟩
  | .hbm, ⟨8, _⟩ => ⟨S_, .f32⟩
  | .hbm, ⟨9, _⟩ => ⟨S_, .f32⟩
  | .hbm, ⟨10, _⟩ => ⟨S200000, .f32⟩
  | .hbm, ⟨11, _⟩ => ⟨S200000, .f32⟩
  | .hbm, ⟨12, _⟩ => ⟨S_, .f32⟩
  | .hbm, ⟨13, _⟩ => ⟨S200000, .f32⟩
  | .hbm, ⟨14, _⟩ => ⟨S200000, .f32⟩
  | .hbm, ⟨15, _⟩ => ⟨S200000x1, .f32⟩
  | .hbm, ⟨16, _⟩ => ⟨S200000x32x3, .f32⟩
  | .hbm, ⟨17, _⟩ => ⟨S32, .i32⟩
  | .hbm, ⟨18, _⟩ => ⟨S1x32, .i32⟩
  | .hbm, ⟨19, _⟩ => ⟨S200000x1, .i32⟩
  | .hbm, ⟨20, _⟩ => ⟨S200000x32, .i32⟩
  | .hbm, ⟨21, _⟩ => ⟨S200000x32, .i32⟩
  | .hbm, ⟨22, _⟩ => ⟨S200000x32, .i1⟩
  | .hbm, ⟨23, _⟩ => ⟨S200000x32, .f32⟩
  | .hbm, ⟨24, _⟩ => ⟨S200000x32x1, .f32⟩
  | .hbm, ⟨25, _⟩ => ⟨S_, .f32⟩
  | .hbm, ⟨26, _⟩ => ⟨S_, .f32⟩
  | .hbm, ⟨27, _⟩ => ⟨S200000, .f32⟩
  | .hbm, ⟨28, _⟩ => ⟨S200000, .f32⟩
  | .hbm, ⟨29, _⟩ => ⟨S200000x1, .f32⟩
  | .hbm, ⟨30, _⟩ => ⟨S200000x32x3, .f32⟩
  | .hbm, ⟨31, _⟩ => ⟨S200000x32x3, .f32⟩
  | .hbm, ⟨32, _⟩ => ⟨S_, .f32⟩
  | .hbm, ⟨33, _⟩ => ⟨S200000x3, .f32⟩
  | .hbm, ⟨34, _⟩ => ⟨S200000x3, .f32⟩
  | .hbm, ⟨35, _⟩ => ⟨S200000x3, .f32⟩
  | .hbm, ⟨36, _⟩ => ⟨S200000x1x3, .f32⟩
  | .hbm, ⟨37, _⟩ => ⟨S200000x32x3, .f32⟩
  | .hbm, ⟨38, _⟩ => ⟨S200000x32x3, .f32⟩
  | .hbm, ⟨39, _⟩ => ⟨S200000x32x3, .f32⟩
  | .hbm, ⟨40, _⟩ => ⟨S200000x32x3, .f32⟩
  | .hbm, ⟨41, _⟩ => ⟨S200000x32x3, .f32⟩
  | .hbm, ⟨42, _⟩ => ⟨S_, .f32⟩
  | .hbm, ⟨43, _⟩ => ⟨S200000x3, .f32⟩
  | .hbm, ⟨44, _⟩ => ⟨S200000x3, .f32⟩
  | .hbm, ⟨45, _⟩ => ⟨S200000x3, .f32⟩
  | .hbm, ⟨46, _⟩ => ⟨S_, .f32⟩
  | .hbm, ⟨47, _⟩ => ⟨S200000, .f32⟩
  | .hbm, ⟨48, _⟩ => ⟨S200000x1, .f32⟩
  | .hbm, ⟨49, _⟩ => ⟨S_, .f32⟩
  | .hbm, ⟨50, _⟩ => ⟨S200000x1, .f32⟩
  | .hbm, ⟨51, _⟩ => ⟨S200000x1, .f32⟩
  | .hbm, ⟨52, _⟩ => ⟨S_, .f32⟩
  | .hbm, ⟨53, _⟩ => ⟨S200000x1, .f32⟩
  | .hbm, ⟨54, _⟩ => ⟨S200000x1, .f32⟩
  | .hbm, ⟨55, _⟩ => ⟨S200000x1, .f32⟩
  | .hbm, ⟨56, _⟩ => ⟨S200000x5, .f32⟩
  | .hbm, ⟨57, _⟩ => ⟨S200000x16, .f32⟩
  | .hbm, ⟨58, _⟩ => ⟨S1x16, .f32⟩
  | .hbm, ⟨59, _⟩ => ⟨S200000x16, .f32⟩
  | .hbm, ⟨60, _⟩ => ⟨S200000x16, .f32⟩
  | .hbm, ⟨61, _⟩ => ⟨S_, .f32⟩
  | .hbm, ⟨62, _⟩ => ⟨S200000x16, .f32⟩
  | .hbm, ⟨63, _⟩ => ⟨S200000x16, .f32⟩
  | .hbm, ⟨64, _⟩ => ⟨S200000x1, .f32⟩
  | .hbm, ⟨65, _⟩ => ⟨S1x1, .f32⟩
  | .hbm, ⟨66, _⟩ => ⟨S200000x1, .f32⟩
  | .hbm, ⟨67, _⟩ => ⟨S200000x1, .f32⟩
  | .hbm, ⟨68, _⟩ => ⟨S200000x1, .f32⟩
  | .hbm, ⟨69, _⟩ => ⟨S200000x1, .f32⟩
  | .hbm, ⟨70, _⟩ => ⟨S_, .f32⟩
  | .hbm, ⟨71, _⟩ => ⟨S200000x1, .f32⟩
  | .hbm, ⟨72, _⟩ => ⟨S200000x1, .f32⟩
  | .hbm, ⟨73, _⟩ => ⟨S_, .f32⟩
  | .hbm, ⟨74, _⟩ => ⟨S200000x1, .f32⟩
  | .hbm, ⟨75, _⟩ => ⟨S200000x1, .f32⟩
  | _, _ => ⟨S200000x32x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_call0_v0 : Ref sig .tc := ⟨.hbm, 9, rfl⟩
abbrev main_call0_v1 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_call1_v0 : Ref sig .tc := ⟨.hbm, 26, rfl⟩
abbrev main_call1_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_call2_cst : Ref sig .tc := ⟨.hbm, 61, rfl⟩
abbrev main_call2_v0 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_7 : Ref sig .tc := ⟨.hbm, 70, rfl⟩
abbrev main_v49 : Ref sig .tc := ⟨.hbm, 71, rfl⟩
abbrev main_v50 : Ref sig .tc := ⟨.hbm, 72, rfl⟩
abbrev main_cst_8 : Ref sig .tc := ⟨.hbm, 73, rfl⟩
abbrev main_v51 : Ref sig .tc := ⟨.hbm, 74, rfl⟩
abbrev main_v52 : Ref sig .tc := ⟨.hbm, 75, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  slices_S200000x32x4_S200000x32x3_0_0_0 : S200000x32x4.Slices ![0, 0, 0] S200000x32x3
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  bcast_S200000x1_S200000x32_0_1 : S200000x1.BroadcastsInDim S200000x32 (![0, 1] : Fin 2 → Fin S200000x32.rank)
  bcast_S200000x32_S200000x32x1_0_1 : S200000x32.BroadcastsInDim S200000x32x1 (![0, 1] : Fin 2 → Fin S200000x32x1.rank)
  bcast_S200000x32x1_S200000x32x3_0_1_2 : S200000x32x1.BroadcastsInDim S200000x32x3 (![0, 1, 2] : Fin 3 → Fin S200000x32x3.rank)
  reducesTo_S200000x32x3_S200000x3_d1 : S200000x32x3.ReducesTo [1] S200000x3
  h_S_ : 0 < S_.numel
  bcast_S200000x1_S200000x3_0_1 : S200000x1.BroadcastsInDim S200000x3 (![0, 1] : Fin 2 → Fin S200000x3.rank)
  bcast_S200000x3_S200000x1x3_0_2 : S200000x3.BroadcastsInDim S200000x1x3 (![0, 2] : Fin 2 → Fin S200000x1x3.rank)
  bcast_S200000x1x3_S200000x32x3_0_1_2 : S200000x1x3.BroadcastsInDim S200000x32x3 (![0, 1, 2] : Fin 3 → Fin S200000x32x3.rank)
  reducesTo_S200000x3_S200000_d1 : S200000x3.ReducesTo [1] S200000
  bcast_S_S200000x1 : S_.BroadcastsInDim S200000x1 (![] : Fin 0 → Fin S200000x1.rank)
  concatenates_S200000x1_S200000x1_S200000x3_S200000x5_d1 : Shape.Concatenates [S200000x1, S200000x1, S200000x3] S200000x5 1
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S_S200000x16 : S_.BroadcastsInDim S200000x16 (![] : Fin 0 → Fin S200000x16.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  dot_S200000x5_S5x16_S200000x16_1_0_0_1_n_n_wf : DotDims.WF S200000x5 S5x16 S200000x16 [1] [0] [0] [1] [] []
  dot_S200000x16_S16x1_S200000x1_1_0_0_1_n_n_wf : DotDims.WF S200000x16 S16x1 S200000x1 [1] [0] [0] [1] [] []

variable [Facts₀]

def dot_S200000x5_S5x16_S200000x16_1_0_0_1_n_n : DotDims S200000x5 S5x16 S200000x16 where
  lhsContracting := [1]
  rhsContracting := [0]
  lhsNonContracting := [0]
  rhsNonContracting := [1]
  lhsBatch := []
  rhsBatch := []
  wf := dot_S200000x5_S5x16_S200000x16_1_0_0_1_n_n_wf
def dot_S200000x16_S16x1_S200000x1_1_0_0_1_n_n : DotDims S200000x16 S16x1 S200000x1 where
  lhsContracting := [1]
  rhsContracting := [0]
  lhsNonContracting := [0]
  rhsNonContracting := [1]
  lhsBatch := []
  rhsBatch := []
  wf := dot_S200000x16_S16x1_S200000x1_1_0_0_1_n_n_wf

class Facts : Prop extends Facts₀ where

variable [Facts]
-- ==== Proof.Spec.lean ====
/-
  What the program computes for one voxel, and for the whole array.

  A voxel is 32 points of 4 channels, of which the first `k` points are valid (`k` is the voxel's point count) and only
  the first three channels (x, y, z) are used. With `μ m = 1` for `m < k` and `0` otherwise and `d = max 1 k`:
    mean c   = (Σ_m x m c · μ m) / d
    var c    = (Σ_m ((x m c - mean c) · μ m)²) / d
    p_var    = exp (-1/2 · (Σ_c var c) / 3)
    p_dens   = min 10 k / 10
  and the result is the logistic function of a two-layer perceptron, 5 → 16 (ReLU) → 1, of
  (p_dens, p_var, mean 0, mean 1, mean 2).
-/
import Idealize.ShloMosaic.PureOps.Ideal
import Idealize.ShloMosaic.Lib.ValueIdx

noncomputable section

open scoped BigOperators

namespace Cert.Voxel

open Idealize.ShloMosaic Idealize.ShloMosaic.ValueIdx

/-- The point count as an extended real. -/
def cnt (k : BitVec 32) : EReal := ((k.toInt : ℝ) : EReal)

/-- The divisor: the point count, at least one. -/
def den (k : BitVec 32) : EReal := max 1 (cnt k)

/-- The weight of point `m`: one when `m` is below the point count (compared as signed words), else zero. -/
def wt (k : BitVec 32) (m : Fin 32) : EReal := (((IntOp.cmpi .slt (BitVec.ofNat 32 m.val) k).toNat : ℝ) : EReal)

/-- The mean of one channel over the valid points. -/
def mean (x : Fin 32 → EReal) (k : BitVec 32) : EReal := Ideal.div (∑ m, x m * wt k m) (den k)

/-- The variance of one channel over the valid points, as the mean of the squared weighted deviations. -/
def var (x : Fin 32 → EReal) (k : BitVec 32) : EReal :=
  Ideal.div (∑ m, ((x m - mean x k) * wt k m) * ((x m - mean x k) * wt k m)) (den k)

/-- `exp (-1/2 · (v 0 + v 1 + v 2) / 3)`. -/
def pvar (v : Fin 3 → EReal) : EReal :=
  Ideal.exp (Ideal.ofBits .f32 0xBF000000#32 * Ideal.div (∑ c, v c) (Ideal.ofBits .f32 0x40400000#32))

/-- `min 10 k / 10`. -/
def pdens (k : BitVec 32) : EReal :=
  Ideal.div (min (Ideal.ofBits .f32 0x41200000#32) (cnt k)) (Ideal.ofBits .f32 0x41200000#32)

/-- The perceptron's five inputs: density, variance term, the three means. -/
def feats (pd pv : EReal) (mu : Fin 3 → EReal) (i : Fin 5) : EReal :=
  if h0 : i.val = 0 then pd else if h1 : i.val = 1 then pv else mu ⟨i.val - 2, by have := i.isLt; omega⟩

/-- The perceptron and the logistic function. -/
def head (inp : Fin 5 → EReal) (W1 : (⟨2, ![5, 16]⟩ : Shape).Idx → EReal) (b1 : Fin 16 → EReal)
    (W2 : (⟨2, ![16, 1]⟩ : Shape).Idx → EReal) (b2 : EReal) : EReal :=
  Ideal.logistic ((∑ j : Fin 16, max ((∑ i : Fin 5, inp i * W1 (ix2 i j)) + b1 j) 0 * W2 (ix2 j (0 : Fin 1))) + b2)

/-- One voxel's result from its points `x m c` (channel `c < 3`), its count and the perceptron's parameters. -/
def voxel (x : Fin 3 → Fin 32 → EReal) (k : BitVec 32) (W1 : (⟨2, ![5, 16]⟩ : Shape).Idx → EReal) (b1 : Fin 16 → EReal)
    (W2 : (⟨2, ![16, 1]⟩ : Shape).Idx → EReal) (b2 : EReal) : EReal :=
  head (feats (pdens k) (pvar fun c => var (x c) k) (fun c => mean (x c) k)) W1 b1 W2 b2

/-- The whole result: row `n` is voxel `n`'s value. -/
def G (a0 : (⟨3, ![200000, 32, 4]⟩ : Shape).Idx → EReal) (a1 : (⟨1, ![200000]⟩ : Shape).Idx → BitVec 32)
    (a3 : (⟨2, ![5, 16]⟩ : Shape).Idx → EReal) (a4 : (⟨1, ![16]⟩ : Shape).Idx → EReal)
    (a5 : (⟨2, ![16, 1]⟩ : Shape).Idx → EReal) (a6 : (⟨1, ![1]⟩ : Shape).Idx → EReal) :
    (⟨2, ![200000, 1]⟩ : Shape).Idx → EReal := fun i =>
  voxel (fun c m => a0 (ix3 (i 0) m (Fin.castSucc c))) (a1 (ix1 (i 0))) a3 (fun j => a4 (ix1 j)) a5 (a6 (ix1 (0 : Fin 1)))

end Cert.Voxel

end
-- ==== Proof.LibTiles.lean ====
/-
  A sum over the rows of a long array, taken tile by tile.

  The `a * b` rows of an array are the rows `t * b + r` of its `a` tiles of `b` rows each (`t < a`, `r < b`): the row
  number written in base `b`. A sum over all rows is therefore the sum over the tiles of the sums over each tile's rows.
  This is a re-indexing of a finite sum in a commutative monoid; it needs no law beyond commutativity and associativity
  of the sum, so it holds of the extended reals as it does of the reals.
-/
import Mathlib.Algebra.BigOperators.Fin
import Mathlib.Logic.Equiv.Fin.Basic

namespace Cert.SumSplit

/-- Row `r` of tile `t` is a row of the whole array. -/
theorem tile_lt {a b : ℕ} (t : Fin a) (r : Fin b) : t.val * b + r.val < a * b := by
  have h1 : t.val * b + r.val < t.val * b + b := Nat.add_lt_add_left r.isLt _
  have h2 : t.val * b + b = (t.val + 1) * b := (Nat.succ_mul t.val b).symm
  have h3 : (t.val + 1) * b ≤ a * b := Nat.mul_le_mul_right b t.isLt
  omega

/-- Row `r` of tile `t`, as a row of the array of `n = a * b` rows. -/
def row {a b n : ℕ} (h : a * b = n) (t : Fin a) (r : Fin b) : Fin n := ⟨t.val * b + r.val, h ▸ tile_lt t r⟩

@[simp] theorem row_val {a b n : ℕ} (h : a * b = n) (t : Fin a) (r : Fin b) : (row h t r).val = t.val * b + r.val := rfl

/-- A sum over `n = a * b` rows is the sum, over the `a` tiles, of the sums over the `b` rows of each. -/
theorem sum_tiles {M : Type*} [AddCommMonoid M] {a b n : ℕ} (h : a * b = n) (g : Fin n → M) :
    ∑ m, g m = ∑ t : Fin a, ∑ r : Fin b, g (row h t r) := by
  subst h
  rw [← (finProdFinEquiv (m := a) (n := b)).sum_comp g, Fintype.sum_prod_type]
  refine Finset.sum_congr rfl fun t _ => Finset.sum_congr rfl fun r _ => congrArg g (Fin.ext ?_)
  show r.val + b * t.val = t.val * b + r.val
  rw [Nat.mul_comm, Nat.add_comm]

end Cert.SumSplit
-- ==== Proof.LibReal.lean ====
/-
  Extended reals that are real numbers. On the extended reals the sum and the product are commutative and associative,
  but the product distributes over the sum only away from the infinities. The predicate `IsR a` says `a` is (the image of)
  a real number; it is closed under every operation met here — sums, finite sums, products, differences, the guarded and
  the plain division by a nonzero real, the logistic function and the hyperbolic tangent — and under it the distributive
  law holds.
-/
import Idealize.ShloMosaic.PureOps.Ideal

noncomputable section

namespace Cert.LibReal

open Idealize.ShloMosaic

/-- `a` is a real number. -/
def IsR (a : EReal) : Prop := ∃ r : ℝ, a = (r : EReal)

theorem IsR.coe (r : ℝ) : IsR (r : EReal) := ⟨r, rfl⟩
theorem IsR.zero : IsR 0 := ⟨0, rfl⟩
theorem IsR.one : IsR 1 := ⟨1, rfl⟩

theorem IsR.add {a b : EReal} (ha : IsR a) (hb : IsR b) : IsR (a + b) := by
  obtain ⟨r, rfl⟩ := ha; obtain ⟨s, rfl⟩ := hb; exact ⟨r + s, (EReal.coe_add r s).symm⟩

theorem IsR.mul {a b : EReal} (ha : IsR a) (hb : IsR b) : IsR (a * b) := by
  obtain ⟨r, rfl⟩ := ha; obtain ⟨s, rfl⟩ := hb; exact ⟨r * s, (EReal.coe_mul r s).symm⟩

theorem IsR.sub {a b : EReal} (ha : IsR a) (hb : IsR b) : IsR (a - b) := by
  obtain ⟨r, rfl⟩ := ha; obtain ⟨s, rfl⟩ := hb; exact ⟨r - s, (EReal.coe_sub r s).symm⟩

/-- A finite sum of real numbers is a real number. -/
theorem IsR.sum {ι : Type*} (s : Finset ι) (f : ι → EReal) (h : ∀ i ∈ s, IsR (f i)) : IsR (∑ i ∈ s, f i) := by
  classical
  induction s using Finset.induction_on with
  | empty => rw [Finset.sum_empty]; exact IsR.zero
  | insert a s ha ih =>
    rw [Finset.sum_insert ha]
    exact (h a (Finset.mem_insert_self a s)).add (ih fun i hi => h i (Finset.mem_insert_of_mem hi))

/-- The quotient of a real number by a nonzero real number. -/
theorem IsR.div {a b : EReal} (ha : IsR a) (hb : IsR b) (hb0 : b ≠ 0) : IsR (Ideal.div a b) := by
  obtain ⟨s, rfl⟩ := hb
  have hs : s ≠ 0 := fun e => hb0 (by rw [e]; rfl)
  rw [Ideal.div_coe hs]
  exact ha.mul (IsR.coe _)

theorem IsR.logistic {a : EReal} (ha : IsR a) : IsR (Ideal.logistic a) := by
  obtain ⟨r, rfl⟩ := ha; exact ⟨_, Ideal.logistic_coe r⟩

theorem IsR.tanh {a : EReal} (ha : IsR a) : IsR (Ideal.tanh a) := by
  obtain ⟨r, rfl⟩ := ha; exact ⟨_, Ideal.tanh_coe r⟩

/-- Among real numbers the product distributes over the sum. -/
theorem add_mul_of_isR {a b c : EReal} (ha : IsR a) (hb : IsR b) (hc : IsR c) : (a + b) * c = a * c + b * c := by
  obtain ⟨r, rfl⟩ := ha; obtain ⟨s, rfl⟩ := hb; obtain ⟨t, rfl⟩ := hc
  rw [← EReal.coe_add, ← EReal.coe_mul, ← EReal.coe_mul, ← EReal.coe_mul, ← EReal.coe_add, add_mul]

end Cert.LibReal

end
-- ==== Proof.LibRealOps.lean ====
/-
  More operations under which the real numbers among the extended reals are closed: negation, the exponential, the
  cosine; the pattern of `2.0`; and the inclusion of the real numbers commuting with finite sums (what lets a law of
  finite real sums be carried to extended reals that are real numbers).
-/
import Idealize.ShloMosaic.PureOps.Ideal
import proofs.«132323_j55808805044588_2_alg».proof.Proof.LibReal

noncomputable section

namespace Cert.LibRealOps

open Idealize.ShloMosaic Cert.LibReal

/-- The pattern of `2.0` denotes the real number 2. -/
theorem two_eq : Ideal.ofBits .f32 0x40000000#32 = ((2 : ℝ) : EReal) := by
  simp [Ideal.ofBits, Ideal.ieee, -EReal.coe_mul]; norm_num

theorem isR_two : IsR (Ideal.ofBits .f32 0x40000000#32) := ⟨2, two_eq⟩

/-- The negative of a real number is a real number. -/
theorem isR_neg {a : EReal} (ha : IsR a) : IsR (-a) := by
  obtain ⟨r, rfl⟩ := ha; exact ⟨-r, (EReal.coe_neg r).symm⟩

/-- The exponential of a real number is a real number. -/
theorem isR_exp {a : EReal} (ha : IsR a) : IsR (Ideal.exp a) := by
  obtain ⟨r, rfl⟩ := ha; exact ⟨Real.exp r, rfl⟩

/-- The cosine of a real number is a real number. -/
theorem isR_cos {a : EReal} (ha : IsR a) : IsR (Ideal.cos a) := by
  obtain ⟨r, rfl⟩ := ha; exact ⟨Real.cos r, rfl⟩

/-- The inclusion of the real numbers commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.LibRealOps

end
-- ==== Proof.Lanes.lean ====
/-
  The 128 lanes of a voxel's row against its 32 points of 4 channels.

  Lane `j` holds channel `j % 4` of point `j / 4`. Three facts connect the lane arrangement with the point arrangement,
  for a point count `k` between 0 and 32:
  * the lane weight `[j < 4 k]` (compared as 32-bit signed words, the product `4 k` not wrapping) is the point weight
    `[j / 4 < k]`, and both are the numbers 0 or 1;
  * the weights of the 32 points add up to `k`, so to the divisor `max 1 k` as soon as one point counts;
  * a sum over the lanes against column `c` of the selection matrix `sel (j, c) = [j % 4 = c and c < 3]` is, for `c < 3`,
    the sum over the points of the lane `4 m + c`.
-/
import Mathlib.Algebra.BigOperators.Fin
import Mathlib.Algebra.Order.BigOperators.Group.Finset
import proofs.«132323_j55808805044588_2_alg».proof.Proof.Spec
import proofs.«132323_j55808805044588_2_alg».proof.Proof.LibTiles
import proofs.«132323_j55808805044588_2_alg».proof.Proof.LibReal
import proofs.«132323_j55808805044588_2_alg».proof.Proof.LibRealOps

noncomputable section

open scoped BigOperators

namespace Cert.Voxel

open Idealize.ShloMosaic Idealize.ShloMosaic.ValueIdx Cert.LibReal Cert.LibRealOps

/-- The point count is between 0 and 32 (as a signed word). -/
def InRange (k : BitVec 32) : Prop := 0 ≤ k.toInt ∧ k.toInt ≤ 32

/-- Such a count is the word of a natural number at most 32. -/
theorem InRange.exists_nat {k : BitVec 32} (h : InRange k) : ∃ kk : Fin 33, k = BitVec.ofNat 32 kk.val := by
  obtain ⟨h0, h1⟩ := h
  have hk := k.isLt
  rw [BitVec.toInt_eq_toNat_cond] at h0 h1
  refine ⟨⟨k.toNat, ?_⟩, ?_⟩
  · split at h1 <;> omega
  · exact BitVec.eq_of_toNat_eq (by
      show k.toNat = (BitVec.ofNat 32 k.toNat).toNat
      rw [BitVec.toNat_ofNat, Nat.mod_eq_of_lt hk])

/-- The point weight as a comparison of natural numbers. -/
theorem cmp_point : ∀ (kk : Fin 33) (m : Fin 32),
    IntOp.cmpi .slt (BitVec.ofNat 32 m.val) (BitVec.ofNat 32 kk.val) = if m.val < kk.val then 1#1 else 0#1 := by
  decide +kernel

/-- The lane weight is the weight of the lane's point. -/
theorem cmp_lane : ∀ (kk : Fin 33) (j : Fin 128),
    IntOp.cmpi .slt (BitVec.ofNat 32 j.val) (IntOp.muli 4#32 (BitVec.ofNat 32 kk.val))
      = if j.val / 4 < kk.val then 1#1 else 0#1 := by
  decide +kernel

/-- A one-bit word widened to 32 bits and read as a signed integer is the bit. -/
theorem toInt_setWidth_bit : ∀ b : BitVec 1, (b.setWidth 32).toInt = (b.toNat : ℤ) := by decide

/-- The lane weight as the kernel computes it: the comparison widened and converted. -/
def wtLane (k : BitVec 32) (j : Fin 128) : EReal :=
  ((((IntOp.cmpi .slt (BitVec.ofNat 32 j.val) (IntOp.muli 4#32 k)).setWidth 32).toInt : ℝ) : EReal)

theorem wt_ofNat (kk : Fin 33) (m : Fin 32) :
    wt (BitVec.ofNat 32 kk.val) m = (((if m.val < kk.val then 1 else 0 : ℝ)) : EReal) := by
  unfold wt
  rw [cmp_point]
  split <;> simp

theorem wtLane_ofNat (kk : Fin 33) (j : Fin 128) :
    wtLane (BitVec.ofNat 32 kk.val) j = (((if j.val / 4 < kk.val then 1 else 0 : ℝ)) : EReal) := by
  unfold wtLane
  rw [cmp_lane, toInt_setWidth_bit]
  split <;> simp

/-- Lane `4 m + r` carries point `m`'s weight. -/
theorem wtLane_eq {k : BitVec 32} (h : InRange k) (m : Fin 32) (r : Fin 4) :
    wtLane k (Cert.SumSplit.row (by decide : 32 * 4 = 128) m r) = wt k m := by
  obtain ⟨kk, rfl⟩ := h.exists_nat
  rw [wtLane_ofNat, wt_ofNat]
  have e : (Cert.SumSplit.row (by decide : 32 * 4 = 128) m r).val / 4 = m.val := by
    rw [Cert.SumSplit.row_val]; have := r.isLt; omega
  rw [e]

/-- A weight is 0 or 1. -/
theorem wt_zero_or_one (k : BitVec 32) (m : Fin 32) : wt k m = 0 ∨ wt k m = 1 := by
  unfold wt
  have : ∀ b : BitVec 1, b = 0#1 ∨ b = 1#1 := by decide
  rcases this (IntOp.cmpi .slt (BitVec.ofNat 32 m.val) k) with h | h <;> rw [h]
  · left; simp
  · right; simp

/-- The number of points below `kk`. -/
theorem card_below : ∀ kk : Fin 33, (Finset.univ.filter fun m : Fin 32 => m.val < kk.val).card = kk.val := by
  decide +kernel

/-- The weights add up to the divisor, unless no point counts. -/
theorem wt_sum {k : BitVec 32} (h : InRange k) : (∑ m, wt k m = den k) ∨ (∀ m, wt k m = 0) := by
  obtain ⟨kk, rfl⟩ := h.exists_nat
  by_cases h0 : kk.val = 0
  · right
    intro m
    rw [wt_ofNat, if_neg (by omega)]
    rfl
  · left
    have hsum : ∑ m : Fin 32, (if m.val < kk.val then (1 : ℝ) else 0) = (kk.val : ℝ) := by
      rw [Finset.sum_boole, card_below]
    have hcnt : cnt (BitVec.ofNat 32 kk.val) = ((kk.val : ℝ) : EReal) := by
      unfold cnt
      have : (BitVec.ofNat 32 kk.val).toInt = (kk.val : ℤ) := by
        have := kk.isLt
        rw [BitVec.toInt_eq_toNat_cond, BitVec.toNat_ofNat]
        have e : kk.val % 2 ^ 32 = kk.val := Nat.mod_eq_of_lt (by omega)
        rw [e, if_pos (by omega)]
      rw [this]; norm_cast
    rw [Finset.sum_congr rfl fun m _ => wt_ofNat kk m, ← coe_sum, hsum]
    unfold den
    rw [hcnt]
    have h1 : (1 : ℝ) ≤ (kk.val : ℝ) := by
      have : 1 ≤ kk.val := by omega
      exact_mod_cast this
    rw [show (1 : EReal) = ((1 : ℝ) : EReal) from rfl, max_eq_right (EReal.coe_le_coe_iff.2 h1)]

/-- The divisor is a nonzero real number. -/
theorem den_real {k : BitVec 32} : ∃ r : ℝ, r ≠ 0 ∧ den k = (r : EReal) := by
  refine ⟨max 1 (k.toInt : ℝ), ?_, ?_⟩
  · have : (1 : ℝ) ≤ max 1 (k.toInt : ℝ) := le_max_left _ _
    intro e; rw [e] at this; norm_num at this
  · unfold den cnt
    rw [show (1 : EReal) = ((1 : ℝ) : EReal) from rfl]
    rcases le_total (1 : ℝ) (k.toInt : ℝ) with h | h
    · rw [max_eq_right h, max_eq_right (EReal.coe_le_coe_iff.2 h)]
    · rw [max_eq_left h, max_eq_left (EReal.coe_le_coe_iff.2 h)]

/-- A sum over the 128 lanes against a selection column `[j % 4 = c]` is the sum over the 32 points of lane `4 m + c`. -/
theorem lane_sum (f : Fin 128 → EReal) (s : Fin 128 → EReal) (c : Fin 4)
    (hs : ∀ (m : Fin 32) (r : Fin 4), s (Cert.SumSplit.row (by decide : 32 * 4 = 128) m r) = if r = c then 1 else 0) :
    ∑ j, f j * s j = ∑ m : Fin 32, f (Cert.SumSplit.row (by decide : 32 * 4 = 128) m c) := by
  rw [Cert.SumSplit.sum_tiles (by decide : 32 * 4 = 128)]
  refine Finset.sum_congr rfl fun m _ => ?_
  rw [Finset.sum_eq_single c]
  · rw [hs, if_pos rfl, mul_one]
  · intro r _ hr
    rw [hs, if_neg hr, mul_zero]
  · intro hc; exact absurd (Finset.mem_univ c) hc

end Cert.Voxel

end
-- ==== Proof.LibColumn.lean ====
/-
  Layout operations of "keepdims" row statistics, read at an index given by coordinates.

  A row statistic of an `[a, b]` array (a sum, a mean, a variance along the second axis) lives in an `[a]` array,
  is given a unit column axis, `[a, 1]`, and is spread back over the row, `[a, b]`; a per-feature parameter `[b]` is
  given a unit row axis `[1, b]` and spread over the rows. Each of these steps, in a kernel's vector spelling
  (`shapeCast`, `broadcastTo`) and in the host's (`broadcastInDim` with explicit axes), reads at `(p, c)` the
  operand at the evident coordinates. The lemmas are stated over indices built by `ix1` / `ix2` at every extent, so
  they apply to a printed operation by unification.
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[a] → [a, 1]` along axis 0 reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The host's `[a, 1] → [a, b]` along axes (0, 1) reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[b] → [1, b]` along axis 1 reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- The host's `[1, b] → [a, b]` along axes (0, 1) reads, at `(p, c)`, the one row at `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's spread of a rank-0 value over any shape reads, everywhere, that value. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 fun ax => ax.elim0

end Cert.LibColumn
-- ==== Proof.LibDot.lean ====
/-
  A rows-by-columns product read at an index.

  For dimension numbers that contract the left operand's second axis with the right operand's first (the plain
  `M × K` by `K × N` product), the sum over the contraction index that both the kernel's matrix unit and the
  host's `dot_general` denote on the extended reals is the familiar `Σ_k l (a, k) · r (k, b)`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : ℕ}

/-- The contraction sum of a plain product at output index `(a, b)` is the sum over `k : Fin K` of
    `l (a, k) · r (k, b)`. The dimension numbers are given by their six lists, as a printed record states them. -/
theorem sum_eq (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  obtain ⟨lc, rc, ln, rn, lb, rb, wf⟩ := D
  dsimp only at h1 h2 h3 h4 h5 h6
  subst h1 h2 h3 h4 h5 h6
  have hr : (DotDims.mk (sl := ⟨2, ![M, K]⟩) (sr := ⟨2, ![K, N]⟩) (so := ⟨2, ![M, N]⟩) [1] [0] [0] [1] [] [] wf).contr.rank = 1 := rfl
  have hs : (DotDims.mk (sl := ⟨2, ![M, K]⟩) (sr := ⟨2, ![K, N]⟩) (so := ⟨2, ![M, N]⟩) [1] [0] [0] [1] [] [] wf).contr.size ⟨0, by omega⟩ = K := rfl
  rw [← Equiv.sum_comp (contrEquiv1 _ K hr hs).symm]
  refine Finset.sum_congr rfl fun k _ => ?_
  have el : (DotDims.mk (sl := ⟨2, ![M, K]⟩) (sr := ⟨2, ![K, N]⟩) (so := ⟨2, ![M, N]⟩) [1] [0] [0] [1] [] [] wf).lhsIdx (ix2 a b) ((contrEquiv1 _ K hr hs).symm k) = ix2 a k := by
    funext d
    match d with
    | ⟨0, _⟩ => rfl
    | ⟨1, _⟩ =>
      refine Fin.ext ?_
      exact (DotDims.lhsIdx_val_of_single _ (cl := 1) rfl (ix2 a b) _).trans (contrEquiv1_symm_val _ K hr hs k)
  have er : (DotDims.mk (sl := ⟨2, ![M, K]⟩) (sr := ⟨2, ![K, N]⟩) (so := ⟨2, ![M, N]⟩) [1] [0] [0] [1] [] [] wf).rhsIdx (ix2 a b) ((contrEquiv1 _ K hr hs).symm k) = ix2 k b := by
    funext d
    match d with
    | ⟨0, _⟩ =>
      refine Fin.ext ?_
      exact (DotDims.rhsIdx_val_of_single _ (cr := 0) rfl (ix2 a b) _).trans (contrEquiv1_symm_val _ K hr hs k)
    | ⟨1, _⟩ => rfl
  rw [el, er]

end Idealize.ShloMosaic.PlainDot

end
-- ==== Proof.KernelRow.lean ====
/-
  One grid point's block, read row by row.

  The body takes a block of 4000 voxels: `x0 (p, j)` lane `j` of voxel `p`, `x1 (p, 0)` its point count, `x2` the
  selection matrix, `x3, x4, x5, x6` the perceptron's parameters. Its value is a chain of stages; each stage is read
  here at row `p` as a function of that row alone:
    masked lanes      x0 (p, j) · [j < 4 k]
    divisor           max 1 k
    channel means     (Σ_j masked (p, j) · x2 (j, c)) / divisor
    channel variances (Σ_j masked (p, j)² · x2 (j, c)) / divisor - mean²
    variance term     exp (-1/2 · (var 0 + var 1 + var 2) / 3)
    density term      min 10 k / 10
  then the five inputs side by side, the two matrix products, and the logistic function.
-/
import proofs.«132323_j55808805044588_2_alg».proof.Proof.Gen.KernelIdeal.Skeleton
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«132323_j55808805044588_2_alg».proof.Proof.Spec
import proofs.«132323_j55808805044588_2_alg».proof.Proof.Lanes
import proofs.«132323_j55808805044588_2_alg».proof.Proof.LibColumn
import proofs.«132323_j55808805044588_2_alg».proof.Proof.LibDot

noncomputable section

open scoped BigOperators

namespace Cert.Voxel.Row

open Idealize.ShloMosaic Idealize.ShloMosaic.ValueIdx Cert.KernelIdeal Cert.KernelIdeal.Gen Cert.Voxel

variable (x0 : FVec Ideal S4000x128 .f32) (x1 : IVec S4000x1 32) (x2 : FVec Ideal S128x4 .f32)
  (x3 : FVec Ideal S5x16 .f32) (x4 : FVec Ideal S1x16 .f32) (x5 : FVec Ideal S16x1 .f32) (x6 : FVec Ideal S1x1 .f32)

/-! ## The stages, as the body spells them -/

/-- The lanes with the invalid points' lanes zeroed. -/
def masked : FVec Ideal S4000x128 .f32 :=
  mulf (shapeCast S4000x128 x0 shapeCasts_S4000x128_S4000x128)
    (sitofp .f32 (extui 32 (cmpi .slt (iota .tc S4000x128 32 [1] iota_S4000x128_d1_w32)
      (broadcastTo S4000x128 (muli (broadcast S4000x1 4#32) (shapeCast S4000x1 x1 shapeCasts_S4000x1_S4000x1))
        broadcasts_S4000x1_S4000x128)) natLt_1_32))

/-- The point count as a float column. -/
def count : FVec Ideal S4000x1 .f32 := sitofp .f32 (shapeCast S4000x1 x1 shapeCasts_S4000x1_S4000x1)

/-- The divisor column. -/
def divisor : FVec Ideal S4000x1 .f32 := maximumf (broadcast S4000x1 (Scalar.ofBits .f32 0x3F800000#32)) (count x1)

/-- The four channel means (the fourth selection column is zero). -/
def means : FVec Ideal S4000x4 .f32 :=
  divf (matmul dot_S4000x128_S128x4_S4000x4_1_0_0_1_n_n none (masked x0 x1) x2 (constant S4000x4 .f32 0x00000000#32))
    (broadcastTo S4000x4 (divisor x1) broadcasts_S4000x1_S4000x4)

/-- The four channel variances, in one pass. -/
def vars : FVec Ideal S4000x4 .f32 :=
  subf (divf (matmul dot_S4000x128_S128x4_S4000x4_1_0_0_1_n_n none (mulf (masked x0 x1) (masked x0 x1)) x2
      (constant S4000x4 .f32 0x00000000#32)) (broadcastTo S4000x4 (divisor x1) broadcasts_S4000x1_S4000x4))
    (mulf (means x0 x1 x2) (means x0 x1 x2))

/-- The variance term. -/
def varTerm : FVec Ideal S4000x1 .f32 :=
  exp (mulf (broadcast S4000x1 (Scalar.ofBits .f32 0xBF000000#32))
    (divf (shapeCast S4000x1 (multiReduction .add [1] S4000
        (extractStridedSlice S4000x3 ![0, 0] (vars x0 x1 x2) slices_S4000x4_o0_0_S4000x3) 0x00000000#32
        reduces_S4000x3_S4000 (.inl rfl) rfl) shapeCasts_S4000_S4000x1)
      (broadcast S4000x1 (Scalar.ofBits .f32 0x40400000#32))))

/-- The density term. -/
def densTerm : FVec Ideal S4000x1 .f32 :=
  divf (minimumf (broadcast S4000x1 (Scalar.ofBits .f32 0x41200000#32)) (count x1))
    (broadcast S4000x1 (Scalar.ofBits .f32 0x41200000#32))

/-- The three column groups of the perceptron's input block. -/
abbrev parts : List ((s : Shape) × (s.Idx → Ideal .f32)) :=
  [⟨S4000x1, densTerm x1⟩, ⟨S4000x1, varTerm x0 x1 x2⟩,
    ⟨S4000x3, extractStridedSlice S4000x3 ![0, 0] (means x0 x1 x2) slices_S4000x4_o0_0_S4000x3⟩]

/-- The perceptron's input block. -/
def inputs : FVec Ideal S4000x5 .f32 :=
  concatenate S4000x5 1 (parts x0 x1 x2) concatenates_S4000x1_S4000x1_S4000x3_S4000x5_d1

/-- The first payload is the first layer's product over these stages. -/
theorem pay2_eq : k0_pay2 (F := Ideal) x0 x1 x2 x3
    = matmul dot_S4000x5_S5x16_S4000x16_1_0_0_1_n_n none (inputs x0 x1 x2) x3 (constant S4000x16 .f32 0x00000000#32) := rfl

/-- The last payload from the first: bias, ReLU, the second layer, bias, logistic. -/
def result (v : FVec Ideal S4000x16 .f32) : FVec Ideal S4000x1 .f32 :=
  logistic (addf
    (matmul dot_S4000x16_S16x1_S4000x1_1_0_0_1_n_n none
      (maximumf (addf v (broadcastTo S4000x16 (shapeCast S1x16 x4 shapeCasts_S1x16_S1x16) broadcasts_S1x16_S4000x16))
        (broadcast S4000x16 (Scalar.ofBits .f32 0x00000000#32))) x5 (constant S4000x1 .f32 0x00000000#32))
    (broadcastTo S4000x1 (shapeCast S1x1 x6 shapeCasts_S1x1_S1x1) broadcasts_S1x1_S4000x1))

theorem pay1_eq (v : FVec Ideal S4000x16 .f32) : k0_pay1 (F := Ideal) v x4 x5 x6 = result x4 x5 x6 v := rfl

/-! ## The stages read at a row -/

theorem exp_apply {s : Shape} (a : FVec Ideal s .f32) (i : s.Idx) : exp a i = Ideal.exp (a i) := rfl
theorem logistic_apply {s : Shape} (a : FVec Ideal s .f32) (i : s.Idx) : logistic a i = Ideal.logistic (a i) := rfl

theorem masked_apply (p : Fin 4000) (j : Fin 128) :
    masked x0 x1 (ix2 p j) = x0 (ix2 p j) * wtLane (x1 (ix2 p (0 : Fin 1))) j := by
  unfold masked wtLane
  rw [shapeCast_self, shapeCast_self]
  have hi : iota .tc S4000x128 32 [1] iota_S4000x128_d1_w32 (ix2 p j) = BitVec.ofNat 32 j.val :=
    iota_single_apply .tc S4000x128 32 1 iota_S4000x128_d1_w32 (ix2 p j)
  have hb : broadcastTo S4000x128 (muli (broadcast S4000x1 4#32) x1) broadcasts_S4000x1_S4000x128 (ix2 p j)
      = IntOp.muli 4#32 (x1 (ix2 p (0 : Fin 1))) :=
    Cert.LibColumn.broadcastTo_a1_ab_apply _ broadcasts_S4000x1_S4000x128 p j
  show x0 (ix2 p j) * ((((IntOp.cmpi .slt (iota .tc S4000x128 32 [1] iota_S4000x128_d1_w32 (ix2 p j))
      (broadcastTo S4000x128 (muli (broadcast S4000x1 4#32) x1) broadcasts_S4000x1_S4000x128 (ix2 p j))).setWidth 32).toInt : ℝ) : EReal) = _
  rw [hi, hb]

theorem count_apply (p : Fin 4000) : count x1 (ix2 p (0 : Fin 1)) = cnt (x1 (ix2 p (0 : Fin 1))) := by
  unfold count cnt
  rw [shapeCast_self]
  rfl

theorem divisor_apply (p : Fin 4000) : divisor x1 (ix2 p (0 : Fin 1)) = den (x1 (ix2 p (0 : Fin 1))) := by
  unfold divisor den
  show max (Ideal.ofBits .f32 0x3F800000#32) (count x1 (ix2 p (0 : Fin 1))) = _
  rw [Ideal.ofBits_one_f32, count_apply]

theorem means_apply (p : Fin 4000) (c : Fin 4) :
    means x0 x1 x2 (ix2 p c)
      = Ideal.div (∑ j : Fin 128, (x0 (ix2 p j) * wtLane (x1 (ix2 p (0 : Fin 1))) j) * x2 (ix2 j c))
          (den (x1 (ix2 p (0 : Fin 1)))) := by
  unfold means
  rw [divf_apply, Cert.LibColumn.broadcastTo_a1_ab_apply, divisor_apply]
  simp only [matmul]
  rw [Ideal.matmul_constant_zero_apply, PlainDot.sum_eq _ rfl rfl rfl rfl rfl rfl]
  simp only [masked_apply]

theorem vars_apply (p : Fin 4000) (c : Fin 4) :
    vars x0 x1 x2 (ix2 p c)
      = Ideal.div (∑ j : Fin 128, ((x0 (ix2 p j) * wtLane (x1 (ix2 p (0 : Fin 1))) j)
            * (x0 (ix2 p j) * wtLane (x1 (ix2 p (0 : Fin 1))) j)) * x2 (ix2 j c)) (den (x1 (ix2 p (0 : Fin 1))))
        - means x0 x1 x2 (ix2 p c) * means x0 x1 x2 (ix2 p c) := by
  unfold vars
  rw [subf_apply, mulf_apply, divf_apply, Cert.LibColumn.broadcastTo_a1_ab_apply, divisor_apply]
  simp only [matmul]
  rw [Ideal.matmul_constant_zero_apply, PlainDot.sum_eq _ rfl rfl rfl rfl rfl rfl]
  simp only [mulf_apply, masked_apply]

/-- The first three columns of a four-column block. -/
theorem first3_apply (y : FVec Ideal S4000x4 .f32) (p : Fin 4000) (c : Fin 3) :
    extractStridedSlice S4000x3 ![0, 0] y slices_S4000x4_o0_0_S4000x3 (ix2 p c) = y (ix2 p (Fin.castSucc c)) :=
  slice2_axis1_apply 0 y slices_S4000x4_o0_0_S4000x3 p c (Fin.castSucc c) (by simp)

/-- The sum along a three-entry row. -/
theorem rowsum3_apply (y : FVec Ideal S4000x3 .f32) (hφ : FKind.Formats .f32)
    (hacc : (0x00000000#32 : BitVec 32) = 0x00000000#32) (p : Fin 4000) :
    multiReduction .add [1] S4000 y 0x00000000#32 reduces_S4000x3_S4000 hφ hacc (ix1 p) = ∑ c : Fin 3, y (ix2 p c) := by
  refine (Ideal.multiReduction_add_single y 0x00000000#32 reduces_S4000x3_S4000 hφ hacc (ix1 p)).trans ?_
  exact Finset.sum_congr rfl fun c _ =>
    congrArg y (funext fun a => Fin.ext (by match a with | ⟨0, _⟩ => rfl | ⟨1, _⟩ => rfl))

theorem varTerm_apply (p : Fin 4000) :
    varTerm x0 x1 x2 (ix2 p (0 : Fin 1))
      = Ideal.exp (Ideal.ofBits .f32 0xBF000000#32
          * Ideal.div (∑ c : Fin 3, vars x0 x1 x2 (ix2 p (Fin.castSucc c))) (Ideal.ofBits .f32 0x40400000#32)) := by
  unfold varTerm
  rw [exp_apply, mulf_apply, divf_apply, Cert.LibColumn.shapeCast_a_a1_apply]
  refine congrArg (fun z => Ideal.exp (Ideal.ofBits .f32 0xBF000000#32 * Ideal.div z (Ideal.ofBits .f32 0x40400000#32))) ?_
  exact (rowsum3_apply _ _ _ p).trans (Finset.sum_congr rfl fun c _ => first3_apply _ p c)

theorem densTerm_apply (p : Fin 4000) : densTerm x1 (ix2 p (0 : Fin 1)) = pdens (x1 (ix2 p (0 : Fin 1))) := by
  unfold densTerm pdens
  show Ideal.div (min (Ideal.ofBits .f32 0x41200000#32) (count x1 (ix2 p (0 : Fin 1)))) (Ideal.ofBits .f32 0x41200000#32) = _
  rw [count_apply]

theorem inputs_apply (p : Fin 4000) (i : Fin 5) :
    inputs x0 x1 x2 (ix2 p i)
      = feats (densTerm x1 (ix2 p (0 : Fin 1))) (varTerm x0 x1 x2 (ix2 p (0 : Fin 1)))
          (fun c => means x0 x1 x2 (ix2 p (Fin.castSucc c))) i := by
  unfold inputs feats
  have off1 : ∀ (j : Fin 5) (b : Fin S4000x1.rank), b.cast rfl ≠ (1 : Fin S4000x5.rank) →
      ((ix2 p (0 : Fin 1) : S4000x1.Idx) b).val = ((ix2 p j : S4000x5.Idx) (b.cast rfl)).val := fun j b hb => by
    match b with
    | ⟨0, _⟩ => rfl
    | ⟨1, _⟩ => exact absurd rfl hb
  have off3 : ∀ (j : Fin 5) (c : Fin 3) (b : Fin S4000x3.rank), b.cast rfl ≠ (1 : Fin S4000x5.rank) →
      ((ix2 p c : S4000x3.Idx) b).val = ((ix2 p j : S4000x5.Idx) (b.cast rfl)).val := fun j c b hb => by
    match b with
    | ⟨0, _⟩ => rfl
    | ⟨1, _⟩ => exact absurd rfl hb
  match i with
  | ⟨0, _⟩ =>
    rw [dif_pos rfl]
    exact concatenate_apply_piece 1 (parts x0 x1 x2) concatenates_S4000x1_S4000x1_S4000x3_S4000x5_d1 _ 0 (by show (0 : ℕ) < 3; decide)
      S4000x1 (densTerm x1) rfl rfl 0 rfl (ix2 p (0 : Fin 1)) (off1 _) rfl
  | ⟨1, _⟩ =>
    rw [dif_neg (show ¬(1 : ℕ) = 0 by decide), dif_pos rfl]
    exact concatenate_apply_piece 1 (parts x0 x1 x2) concatenates_S4000x1_S4000x1_S4000x3_S4000x5_d1 _ 1 (by show (1 : ℕ) < 3; decide)
      S4000x1 (varTerm x0 x1 x2) rfl rfl 1 rfl (ix2 p (0 : Fin 1)) (off1 _) rfl
  | ⟨2, _⟩ =>
    rw [dif_neg (show ¬(2 : ℕ) = 0 by decide), dif_neg (show ¬(2 : ℕ) = 1 by decide)]
    refine (concatenate_apply_piece 1 (parts x0 x1 x2) concatenates_S4000x1_S4000x1_S4000x3_S4000x5_d1 _ 2 (by show (2 : ℕ) < 3; decide)
      S4000x3 _ rfl rfl 2 rfl (ix2 p (0 : Fin 3)) (off3 _ _) rfl).trans ?_
    exact first3_apply _ p 0
  | ⟨3, _⟩ =>
    rw [dif_neg (show ¬(3 : ℕ) = 0 by decide), dif_neg (show ¬(3 : ℕ) = 1 by decide)]
    refine (concatenate_apply_piece 1 (parts x0 x1 x2) concatenates_S4000x1_S4000x1_S4000x3_S4000x5_d1 _ 2 (by show (2 : ℕ) < 3; decide)
      S4000x3 _ rfl rfl 2 rfl (ix2 p (1 : Fin 3)) (off3 _ _) rfl).trans ?_
    exact first3_apply _ p 1
  | ⟨4, _⟩ =>
    rw [dif_neg (show ¬(4 : ℕ) = 0 by decide), dif_neg (show ¬(4 : ℕ) = 1 by decide)]
    refine (concatenate_apply_piece 1 (parts x0 x1 x2) concatenates_S4000x1_S4000x1_S4000x3_S4000x5_d1 _ 2 (by show (2 : ℕ) < 3; decide)
      S4000x3 _ rfl rfl 2 rfl (ix2 p (2 : Fin 3)) (off3 _ _) rfl).trans ?_
    exact first3_apply _ p 2

theorem hidden_apply (p : Fin 4000) (q : Fin 16) :
    k0_pay2 (F := Ideal) x0 x1 x2 x3 (ix2 p q) = ∑ i : Fin 5, inputs x0 x1 x2 (ix2 p i) * x3 (ix2 i q) := by
  rw [pay2_eq]
  simp only [matmul]
  rw [Ideal.matmul_constant_zero_apply, PlainDot.sum_eq _ rfl rfl rfl rfl rfl rfl]

theorem result_apply (v : FVec Ideal S4000x16 .f32) (p : Fin 4000) :
    result x4 x5 x6 v (ix2 p (0 : Fin 1))
      = Ideal.logistic ((∑ j : Fin 16, max (v (ix2 p j) + x4 (ix2 (0 : Fin 1) j)) 0 * x5 (ix2 j (0 : Fin 1)))
          + x6 (ix2 (0 : Fin 1) (0 : Fin 1))) := by
  unfold result
  rw [logistic_apply, addf_apply, broadcastTo_1b_ab_apply, shapeCast_self, shapeCast_self]
  simp only [matmul]
  rw [Ideal.matmul_constant_zero_apply, PlainDot.sum_eq _ rfl rfl rfl rfl rfl rfl]
  refine congrArg (fun z => Ideal.logistic (z + x6 (ix2 (0 : Fin 1) (0 : Fin 1)))) (Finset.sum_congr rfl fun j _ => ?_)
  rw [maximumf_apply, addf_apply, broadcastTo_1b_ab_apply]
  show max _ (Ideal.ofBits .f32 0x00000000#32) * _ = _
  rw [Ideal.ofBits_zero_f32]

end Cert.Voxel.Row

end
-- ==== Proof.Stats.lean ====
/-
  The statistics of one voxel, in two arrangements.

  A voxel holds up to 32 points; point `m` counts when its weight `μ m` is 1 and is ignored when it is 0. With `d` the
  divisor (the number of counted points, or 1 when there is none), the mean of a channel is `S / d` with
  `S = Σ x m · μ m`. The variance is written either as the mean of the squared, weighted deviations,
  `(Σ ((x m - S/d) · μ m)²) / d`, or in one pass as `(Σ (x m · μ m)²) / d - (S/d)²`. For real entries, weights in {0, 1}
  and a divisor that is the number of counted points (or any nonzero divisor when no point counts), the two agree:
  expanding the square and using `μ² = μ` gives `Q - 2 (S/d) S + (S/d)² Σ μ`, and `Σ μ = d` collapses the last two
  terms to `-(S/d)² d`.
-/
import proofs.«132323_j55808805044588_2_alg».proof.Proof.LibReal
import proofs.«132323_j55808805044588_2_alg».proof.Proof.LibRealOps

noncomputable section

open scoped BigOperators

namespace Cert.Stats

open Idealize.ShloMosaic Cert.LibReal Cert.LibRealOps

/-- The identity over the real numbers. -/
theorem var_real {ι : Type*} [Fintype ι] (x μ : ι → ℝ) (d : ℝ) (hd : d ≠ 0) (hμ : ∀ m, μ m = 0 ∨ μ m = 1)
    (hc : (∑ m, μ m = d) ∨ (∀ m, μ m = 0)) :
    (∑ m, ((x m - (∑ k, x k * μ k) * (1 / d)) * μ m) * ((x m - (∑ k, x k * μ k) * (1 / d)) * μ m)) * (1 / d)
      = (∑ m, (x m * μ m) * (x m * μ m)) * (1 / d) - ((∑ k, x k * μ k) * (1 / d)) * ((∑ k, x k * μ k) * (1 / d)) := by
  rcases hc with hc | hc
  · set S := ∑ k, x k * μ k with hS
    set M := S * (1 / d) with hM
    have key : ∀ m, ((x m - M) * μ m) * ((x m - M) * μ m)
        = (x m * μ m) * (x m * μ m) - 2 * M * (x m * μ m) + M * M * μ m := by
      intro m
      rcases hμ m with h | h <;> rw [h] <;> ring
    rw [Finset.sum_congr rfl fun m _ => key m, Finset.sum_add_distrib, Finset.sum_sub_distrib, ← Finset.mul_sum,
      ← Finset.mul_sum, hc, ← hS]
    rw [hM]
    field_simp
    ring
  · have h0 : ∀ m, x m * μ m = 0 := fun m => by rw [hc m, mul_zero]
    simp only [hc, h0, mul_zero, Finset.sum_const_zero, zero_mul, sub_zero]

/-- The same identity among extended reals that are real numbers, with the quotient the extended reals' own. -/
theorem var_onepass {ι : Type*} [Fintype ι] (x μ : ι → EReal) (d : EReal) (hx : ∀ m, IsR (x m))
    (hμ : ∀ m, μ m = 0 ∨ μ m = 1) (hd : ∃ r : ℝ, r ≠ 0 ∧ d = (r : EReal))
    (hc : (∑ m, μ m = d) ∨ (∀ m, μ m = 0)) :
    Ideal.div (∑ m, ((x m - Ideal.div (∑ k, x k * μ k) d) * μ m) * ((x m - Ideal.div (∑ k, x k * μ k) d) * μ m)) d
      = Ideal.div (∑ m, (x m * μ m) * (x m * μ m)) d
        - Ideal.div (∑ k, x k * μ k) d * Ideal.div (∑ k, x k * μ k) d := by
  classical
  obtain ⟨r, hr, rfl⟩ := hd
  choose xr hxr using hx
  have hμr : ∀ m, ∃ s : ℝ, μ m = (s : EReal) ∧ (s = 0 ∨ s = 1) := fun m => by
    rcases hμ m with h | h
    · exact ⟨0, by rw [h]; rfl, Or.inl rfl⟩
    · exact ⟨1, by rw [h]; rfl, Or.inr rfl⟩
  choose μr hμr hμ01 using hμr
  have ex : x = fun m => ((xr m : ℝ) : EReal) := funext hxr
  have eμ : μ = fun m => ((μr m : ℝ) : EReal) := funext hμr
  subst ex eμ
  have hcr : (∑ m, μr m = r) ∨ (∀ m, μr m = 0) := by
    rcases hc with hc | hc
    · left
      rw [← coe_sum] at hc
      exact_mod_cast hc
    · right
      intro m
      have h : ((μr m : ℝ) : EReal) = 0 := hc m
      exact_mod_cast h
  simp only [Ideal.div_coe hr, ← EReal.coe_mul, ← coe_sum, ← EReal.coe_sub]
  exact congrArg _ (var_real xr μr r hr hμ01 hcr)

end Cert.Stats

end
-- ==== Proof.KernelVoxel.lean ====
/-
  A block's row is its voxel's value.

  With the selection matrix `x2 (4 m + r, c) = [r = c and c < 3]`, a point count between 0 and 32 and real lanes, the
  body's row `p` is the voxel function of the row's points: the lane sums against the selection columns are the sums
  over the points, the lane weights are the point weights, and the one-pass variance is the mean squared deviation.
-/
import proofs.«132323_j55808805044588_2_alg».proof.Proof.KernelRow
import proofs.«132323_j55808805044588_2_alg».proof.Proof.Stats

noncomputable section

open scoped BigOperators

namespace Cert.Voxel.Row

open Idealize.ShloMosaic Idealize.ShloMosaic.ValueIdx Cert.KernelIdeal Cert.KernelIdeal.Gen Cert.Voxel Cert.LibReal

variable (x0 : FVec Ideal S4000x128 .f32) (x1 : IVec S4000x1 32) (x2 : FVec Ideal S128x4 .f32)
  (x3 : FVec Ideal S5x16 .f32) (x4 : FVec Ideal S1x16 .f32) (x5 : FVec Ideal S16x1 .f32) (x6 : FVec Ideal S1x1 .f32)

/-- Lane `4 m + r`: channel `r` of point `m`. -/
abbrev lane (m : Fin 32) (r : Fin 4) : Fin 128 := Cert.SumSplit.row (by decide : 32 * 4 = 128) m r

/-- The selection matrix: column `c` picks the lanes of channel `c`, for the three channels that are used. -/
def IsSel (x2 : FVec Ideal S128x4 .f32) : Prop :=
  ∀ (m : Fin 32) (r c : Fin 4), x2 (ix2 (lane m r) c) = if r = c ∧ c.val < 3 then 1 else 0

variable {x2}

theorem IsSel.col (hs : IsSel x2) (c : Fin 3) (m : Fin 32) (r : Fin 4) :
    (fun j => x2 (ix2 j (Fin.castSucc c))) (lane m r) = if r = Fin.castSucc c then 1 else 0 := by
  show x2 (ix2 (lane m r) (Fin.castSucc c)) = _
  rw [hs]
  have h3 : (Fin.castSucc c).val < 3 := c.isLt
  simp only [h3, and_true]

variable (x2)

theorem means_eq (p : Fin 4000) (hk : InRange (x1 (ix2 p (0 : Fin 1)))) (hs : IsSel x2) (c : Fin 3) :
    means x0 x1 x2 (ix2 p (Fin.castSucc c))
      = mean (fun m => x0 (ix2 p (lane m (Fin.castSucc c)))) (x1 (ix2 p (0 : Fin 1))) := by
  rw [means_apply]
  unfold mean
  refine congrArg (fun z => Ideal.div z (den (x1 (ix2 p (0 : Fin 1))))) ?_
  rw [lane_sum (fun j => x0 (ix2 p j) * wtLane (x1 (ix2 p (0 : Fin 1))) j) (fun j => x2 (ix2 j (Fin.castSucc c)))
    (Fin.castSucc c) (hs.col c)]
  exact Finset.sum_congr rfl fun m _ => by rw [wtLane_eq hk]

theorem vars_eq (p : Fin 4000) (hk : InRange (x1 (ix2 p (0 : Fin 1)))) (hs : IsSel x2)
    (hx : ∀ j, IsR (x0 (ix2 p j))) (c : Fin 3) :
    vars x0 x1 x2 (ix2 p (Fin.castSucc c))
      = var (fun m => x0 (ix2 p (lane m (Fin.castSucc c)))) (x1 (ix2 p (0 : Fin 1))) := by
  rw [vars_apply, means_eq x0 x1 x2 p hk hs]
  unfold var mean
  rw [lane_sum (fun j => (x0 (ix2 p j) * wtLane (x1 (ix2 p (0 : Fin 1))) j) * (x0 (ix2 p j) * wtLane (x1 (ix2 p (0 : Fin 1))) j))
    (fun j => x2 (ix2 j (Fin.castSucc c))) (Fin.castSucc c) (hs.col c)]
  simp only [wtLane_eq hk]
  exact (Cert.Stats.var_onepass (fun m => x0 (ix2 p (lane m (Fin.castSucc c)))) (wt (x1 (ix2 p (0 : Fin 1))))
    (den (x1 (ix2 p (0 : Fin 1)))) (fun m => hx _) (wt_zero_or_one _) den_real (wt_sum hk)).symm

/-- Row `p` of what a grid point stores is the voxel function of row `p` of its blocks. -/
theorem row_eq (p : Fin 4000) (hk : InRange (x1 (ix2 p (0 : Fin 1)))) (hs : IsSel x2) (hx : ∀ j, IsR (x0 (ix2 p j))) :
    k0_pay1 (F := Ideal) (k0_pay2 (F := Ideal) x0 x1 x2 x3) x4 x5 x6 (ix2 p (0 : Fin 1))
      = voxel (fun c m => x0 (ix2 p (lane m (Fin.castSucc c)))) (x1 (ix2 p (0 : Fin 1))) x3
          (fun j => x4 (ix2 (0 : Fin 1) j)) x5 (x6 (ix2 (0 : Fin 1) (0 : Fin 1))) := by
  rw [pay1_eq, result_apply]
  unfold voxel head pvar
  simp only [hidden_apply, inputs_apply, densTerm_apply, varTerm_apply, means_eq x0 x1 x2 p hk hs,
    vars_eq x0 x1 x2 p hk hs hx]

end Cert.Voxel.Row

end
-- ==== Proof.Blocks.lean ====
/-
  From the grid points' blocks to the whole result array.

  Grid point `t` handles voxels `4000 t … 4000 t + 3999`: its block of the reshaped features is rows `4000 t + p` of
  the `[200000, 128]` array whose entry `(n, 4 m + r)` is channel `r` of point `m` of voxel `n`; its block of the counts
  is the same rows of the count column; the selection matrix and the perceptron's parameters are whole arrays, the
  two biases given a unit row axis. So what point `t` writes back is block `t` of the voxel function `G` of the
  argument arrays, the fifty blocks tile the `[200000, 1]` result, and the result ends at `G`.
-/
import proofs.«132323_j55808805044588_2_alg».proof.Proof.Gen.KernelIdeal.Value
import Idealize.ShloMosaic.Lib.Pipeline.Value
import Idealize.ShloMosaic.Lib.StableHlo.Run
import Idealize.ShloMosaic.Lib.ValueIdx
import Idealize.ShloMosaic.Lib.Tactic
import proofs.«132323_j55808805044588_2_alg».proof.Proof.KernelVoxel

noncomputable section

open Idealize.ShloMosaic Idealize.ShloMosaic.TcCoe Idealize.SL.Sem Idealize.ShloMosaic.ValueIdx
open Idealize.ShloMosaic.Pipeline (Dat)

namespace Cert.Voxel.Blocks

open Cert.KernelIdeal Cert.KernelIdeal.Gen Cert.KernelIdeal.Value Cert.Voxel Cert.Voxel.Row Cert.LibReal

variable (m : (ℓ : Loc nD τ sig) → Buf (Elt Ideal) ℓ) (ρ : Dev nD → PrngReg)

theorem hz : (![0, 0] : Fin 2 → Nat) = fun _ => 0 := funext fun a => by fin_cases a <;> rfl

/-! ## The arrays as the region finds them -/

theorem V_feat (c : Dev nD) : (V m c main_v0 : S200000x128.Idx → EReal)
    = shapeCast S200000x128 (m ((c : Thread nD τ).loc main_arg0) : S200000x32x4.Idx → EReal)
        Gen.shapeCasts_S200000x32x4_S200000x128 := by
  dsimp only [Gen.V, Gen.hostOps0]; after_results; rfl

theorem V_count (c : Dev nD) : (V m c main_v1 : S200000x1.Idx → BitVec 32)
    = shapeCast S200000x1 (m ((c : Thread nD τ).loc main_arg1) : S200000.Idx → BitVec 32)
        Gen.shapeCasts_S200000_S200000x1 := by
  dsimp only [Gen.V, Gen.hostOps0]; after_results; rfl

theorem V_sel (c : Dev nD) : (V m c main_cst : S128x4.Idx → EReal)
    = fun i => Ideal.ofBits .f32 (lit0 (S128x4.rowMajor i)) := by
  dsimp only [Gen.V, Gen.hostOps0]; after_results; rfl

theorem V_b1 (c : Dev nD) : (V m c main_v2 : S1x16.Idx → EReal)
    = shapeCast S1x16 (m ((c : Thread nD τ).loc main_arg4) : S16.Idx → EReal) Gen.shapeCasts_S16_S1x16 := by
  dsimp only [Gen.V, Gen.hostOps0]; after_results; rfl

theorem V_b2 (c : Dev nD) : (V m c main_v3 : S1x1.Idx → EReal)
    = shapeCast S1x1 (m ((c : Thread nD τ).loc main_arg6) : S1.Idx → EReal) Gen.shapeCasts_S1_S1x1 := by
  dsimp only [Gen.V, Gen.hostOps0]; after_results; rfl

/-- Entry `(n, 4 m + r)` of the reshaped features is channel `r` of point `m` of voxel `n`. -/
theorem V_feat_apply (c : Dev nD) (n : Fin 200000) (j : Fin 128) (k : S200000x32x4.Idx)
    (h0 : (k 0).val = n.val) (h1 : (k 1).val * 4 + (k 2).val = j.val) :
    (V m c main_v0 : S200000x128.Idx → EReal) (ix2 n j) = (m ((c : Thread nD τ).loc main_arg0) : S200000x32x4.Idx → EReal) k := by
  rw [V_feat]
  refine shapeCast_apply _ _ _ k ?_
  rw [Shape.rowMajor_val_three, Shape.rowMajor_val_two]
  show ((k 0).val * 32 + (k 1).val) * 4 + (k 2).val = n.val * 128 + j.val
  omega

theorem V_count_apply (c : Dev nD) (n : Fin 200000) :
    (V m c main_v1 : S200000x1.Idx → BitVec 32) (ix2 n (0 : Fin 1)) = (m ((c : Thread nD τ).loc main_arg1) : S200000.Idx → BitVec 32) (ix1 n) := by
  rw [V_count]
  exact Cert.LibColumn.shapeCast_a_a1_apply _ _ n 0

/-! ## The selection matrix -/

/-- The literal table: a one at position `4 j + c` exactly when `j % 4 = c` and `c < 3`. -/
theorem lit_sel : ∀ i : Fin 512, lit0 i
    = if (i.val / 4) % 4 = i.val % 4 ∧ i.val % 4 < 3 then 0x3F800000#32 else 0x00000000#32 := by
  decide +kernel

theorem lit_sel_nat (n : ℕ) (h : n < 512) : lit0 ⟨n, h⟩
    = if (n / 4) % 4 = n % 4 ∧ n % 4 < 3 then 0x3F800000#32 else 0x00000000#32 := lit_sel ⟨n, h⟩

/-- The selection matrix as the region finds it: entry `(4 m + r, q)` is one exactly when `r = q` and `q < 3`. -/
theorem sel_apply (c : Dev nD) (mm : Fin 32) (r q : Fin 4) :
    (V m c main_cst : S128x4.Idx → EReal) (ix2 (lane mm r) q) = (if r = q ∧ q.val < 3 then 1 else 0 : EReal) := by
  rw [V_sel]
  show Ideal.ofBits .f32 (lit0 (S128x4.rowMajor (ix2 (lane mm r) q))) = _
  have hr := r.isLt
  have hq := q.isLt
  have hm := mm.isLt
  have hv : (S128x4.rowMajor (ix2 (lane mm r) q)).val = (mm.val * 4 + r.val) * 4 + q.val := by
    rw [Shape.rowMajor_val_two]; rfl
  have hl : lit0 (S128x4.rowMajor (ix2 (lane mm r) q))
      = if r.val = q.val ∧ q.val < 3 then 0x3F800000#32 else 0x00000000#32 := by
    refine (lit_sel_nat (S128x4.rowMajor (ix2 (lane mm r) q)).val (S128x4.rowMajor (ix2 (lane mm r) q)).isLt).trans ?_
    rw [hv]
    have e1 : ((mm.val * 4 + r.val) * 4 + q.val) / 4 % 4 = r.val := by omega
    have e2 : ((mm.val * 4 + r.val) * 4 + q.val) % 4 = q.val := by omega
    rw [e1, e2]
  refine (congrArg (Ideal.ofBits .f32) hl).trans ?_
  by_cases h : r = q ∧ q.val < 3
  · rw [if_pos h, if_pos ⟨congrArg Fin.val h.1, h.2⟩, Ideal.ofBits_one_f32]
  · rw [if_neg h, if_neg (fun h' => h ⟨Fin.ext h'.1, h'.2⟩), Ideal.ofBits_zero_f32]

/-! ## The windows' blocks -/

/-- Where each window's block sits, decided over the fifty grid points: the features, the counts and the result move
    with the point along the rows; the other windows stay at block zero. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Voxel `p` of grid point `t`. -/
def vox (t : Fin cfg0.N) (p : Fin 4000) : Fin 200000 :=
  ⟨t.val * 4000 + p.val, by have := t.isLt; have := p.isLt; have : cfg0.N = 50 := N_0; omega⟩

theorem blk_feat (c : Dev nD) (t : Fin cfg0.N) (p : Fin 4000) (j : Fin 128) :
    (iblk m c 0 t : Vec Ideal S4000x128 .f32) (ix2 p j) = (V m c main_v0 : S200000x128.Idx → EReal) (ix2 (vox t p) j) := by
  obtain ⟨e0, e1, -⟩ := idx_facts t
  show V m c main_v0 (((cfg0.win 0).blk t).view.emb (ix2 p j)) = _
  refine congrArg (V m c main_v0 : S200000x128.Idx → EReal) (funext fun a => Fin.ext ?_)
  match a with
  | ⟨0, _⟩ => show win0_0.index t (0 : Fin 2) * 4000 + 1 * p.val = t.val * 4000 + p.val; rw [e0]; omega
  | ⟨1, _⟩ => show win0_0.index t (1 : Fin 2) * 128 + 1 * j.val = j.val; rw [e1]; omega

theorem blk_count (c : Dev nD) (t : Fin cfg0.N) (p : Fin 4000) :
    (iblk m c 1 t : Vec Ideal S4000x1 .i32) (ix2 p (0 : Fin 1)) = (V m c main_v1 : S200000x1.Idx → BitVec 32) (ix2 (vox t p) (0 : Fin 1)) := by
  obtain ⟨-, -, e0, e1, -⟩ := idx_facts t
  show V m c main_v1 (((cfg0.win 1).blk t).view.emb (ix2 p (0 : Fin 1))) = _
  refine congrArg (V m c main_v1 : S200000x1.Idx → BitVec 32) (funext fun a => Fin.ext ?_)
  match a with
  | ⟨0, _⟩ => show win0_1.index t (0 : Fin 2) * 4000 + 1 * p.val = t.val * 4000 + p.val; rw [e0]; omega
  | ⟨1, _⟩ => show win0_1.index t (1 : Fin 2) * 1 + 1 * 0 = 0; rw [e1]

theorem blk_sel (c : Dev nD) (t : Fin cfg0.N) : (iblk m c 2 t : Vec Ideal S128x4 .f32) = (V m c main_cst : S128x4.Idx → EReal) := by
  obtain ⟨-, -, -, -, e0, e1, -⟩ := idx_facts t
  funext y
  show V m c main_cst (((cfg0.win 2).blk t).view.emb y) = _
  refine congrArg (V m c main_cst : S128x4.Idx → EReal) (funext fun a => Fin.ext ?_)
  match a with
  | ⟨0, _⟩ => show win0_2.index t (0 : Fin 2) * 128 + 1 * (y 0).val = (y 0).val; rw [e0]; omega
  | ⟨1, _⟩ => show win0_2.index t (1 : Fin 2) * 4 + 1 * (y 1).val = (y 1).val; rw [e1]; omega

theorem blk_w1 (c : Dev nD) (t : Fin cfg0.N) : (iblk m c 3 t : Vec Ideal S5x16 .f32) = (V m c main_arg3 : S5x16.Idx → EReal) := by
  obtain ⟨-, -, -, -, -, -, e0, e1, -⟩ := idx_facts t
  funext y
  show V m c main_arg3 (((cfg0.win 3).blk t).view.emb y) = _
  refine congrArg (V m c main_arg3 : S5x16.Idx → EReal) (funext fun a => Fin.ext ?_)
  match a with
  | ⟨0, _⟩ => show win0_3.index t (0 : Fin 2) * 5 + 1 * (y 0).val = (y 0).val; rw [e0]; omega
  | ⟨1, _⟩ => show win0_3.index t (1 : Fin 2) * 16 + 1 * (y 1).val = (y 1).val; rw [e1]; omega

theorem blk_b1 (c : Dev nD) (t : Fin cfg0.N) : (iblk m c 4 t : Vec Ideal S1x16 .f32) = (V m c main_v2 : S1x16.Idx → EReal) := by
  obtain ⟨-, -, -, -, -, -, -, -, e0, e1, -⟩ := idx_facts t
  funext y
  show V m c main_v2 (((cfg0.win 4).blk t).view.emb y) = _
  refine congrArg (V m c main_v2 : S1x16.Idx → EReal) (funext fun a => Fin.ext ?_)
  match a with
  | ⟨0, _⟩ => show win0_4.index t (0 : Fin 2) * 1 + 1 * (y 0).val = (y 0).val; rw [e0]; omega
  | ⟨1, _⟩ => show win0_4.index t (1 : Fin 2) * 16 + 1 * (y 1).val = (y 1).val; rw [e1]; omega

theorem blk_w2 (c : Dev nD) (t : Fin cfg0.N) : (iblk m c 5 t : Vec Ideal S16x1 .f32) = (V m c main_arg5 : S16x1.Idx → EReal) := by
  obtain ⟨-, -, -, -, -, -, -, -, -, -, e0, e1, -⟩ := idx_facts t
  funext y
  show V m c main_arg5 (((cfg0.win 5).blk t).view.emb y) = _
  refine congrArg (V m c main_arg5 : S16x1.Idx → EReal) (funext fun a => Fin.ext ?_)
  match a with
  | ⟨0, _⟩ => show win0_5.index t (0 : Fin 2) * 16 + 1 * (y 0).val = (y 0).val; rw [e0]; omega
  | ⟨1, _⟩ => show win0_5.index t (1 : Fin 2) * 1 + 1 * (y 1).val = (y 1).val; rw [e1]; omega

theorem blk_b2 (c : Dev nD) (t : Fin cfg0.N) : (iblk m c 6 t : Vec Ideal S1x1 .f32) = (V m c main_v3 : S1x1.Idx → EReal) := by
  obtain ⟨-, -, -, -, -, -, -, -, -, -, -, -, e0, e1, -⟩ := idx_facts t
  funext y
  show V m c main_v3 (((cfg0.win 6).blk t).view.emb y) = _
  refine congrArg (V m c main_v3 : S1x1.Idx → EReal) (funext fun a => Fin.ext ?_)
  match a with
  | ⟨0, _⟩ => show win0_6.index t (0 : Fin 2) * 1 + 1 * (y 0).val = (y 0).val; rw [e0]; omega
  | ⟨1, _⟩ => show win0_6.index t (1 : Fin 2) * 1 + 1 * (y 1).val = (y 1).val; rw [e1]; omega

end Cert.Voxel.Blocks

end
-- ==== Proof.KernelValue.lean ====
/-
  The result array after the kernel's run.

  Row `p` of what grid point `t` writes back is the voxel function of row `p` of the point's blocks (the count in
  range, the features real, the selection matrix as tabulated); read through the blocks, that is the voxel function of
  voxel `4000 t + p` of the argument arrays: block `t` of `G`. Every row of the result lies in the block of the point
  `row / 4000`, so the array ends at `G` of the arguments.
-/
import proofs.«132323_j55808805044588_2_alg».proof.Proof.Blocks

noncomputable section

open Idealize.ShloMosaic Idealize.ShloMosaic.TcCoe Idealize.SL.Sem Idealize.ShloMosaic.ValueIdx
open Idealize.ShloMosaic.Pipeline (Dat)

namespace Cert.Voxel.Blocks

open Cert.KernelIdeal Cert.KernelIdeal.Gen Cert.KernelIdeal.Value Cert.Voxel Cert.Voxel.Row Cert.LibReal

variable (m : (ℓ : Loc nD τ sig) → Buf (Elt Ideal) ℓ) (ρ : Dev nD → PrngReg)

/-- The voxel function of the argument arrays. -/
abbrev result (c : Dev nD) : S200000x1.Idx → EReal :=
  G (m ((c : Thread nD τ).loc main_arg0)) (m ((c : Thread nD τ).loc main_arg1)) (m ((c : Thread nD τ).loc main_arg3))
    (m ((c : Thread nD τ).loc main_arg4)) (m ((c : Thread nD τ).loc main_arg5)) (m ((c : Thread nD τ).loc main_arg6))

theorem voxel_congr {f f' : Fin 3 → Fin 32 → EReal} {k k' : BitVec 32} {W1 W1' : (⟨2, ![5, 16]⟩ : Shape).Idx → EReal}
    {b1 b1' : Fin 16 → EReal} {W2 W2' : (⟨2, ![16, 1]⟩ : Shape).Idx → EReal} {b2 b2' : EReal}
    (hf : f = f') (hk : k = k') (h1 : W1 = W1') (h2 : b1 = b1') (h3 : W2 = W2') (h4 : b2 = b2') :
    voxel f k W1 b1 W2 b2 = voxel f' k' W1' b1' W2' b2' := by
  subst hf hk h1 h2 h3 h4; rfl

/-- What point `t` writes back is block `t` of the voxel function of the argument arrays. -/
theorem flushed_eq (c : Dev nD) (hR : ∀ i, IsR ((m ((c : Thread nD τ).loc main_arg0) : S200000x32x4.Idx → EReal) i))
    (hK : ∀ i, InRange ((m ((c : Thread nD τ).loc main_arg1) : S200000.Idx → BitVec 32) i)) (t : Fin cfg0.N) :
    (dats m 0 c).flushed 7 t = ((cfg0.win 7).blk t).view.read (Elt Ideal) (result m c) := by
  rw [flushed7]
  unfold out0_7
  rw [View.canon_unit_zero hz]
  simp only [View.ld_unit_zero (S := S4000x128) hz, View.ld_unit_zero (S := S4000x1) hz, View.ld_unit_zero (S := S128x4) hz,
    View.ld_unit_zero (S := S5x16) hz, View.ld_unit_zero (S := S1x16) hz, View.ld_unit_zero (S := S16x1) hz,
    View.ld_unit_zero (S := S1x1) hz]
  obtain ⟨-, -, -, -, -, -, -, -, -, -, -, -, -, -, e0, e1⟩ := idx_facts t
  funext y
  obtain ⟨p, u, rfl⟩ : ∃ (p : Fin 4000) (u : Fin 1), y = ix2 p u := ⟨y 0, y 1, eq_ix2 y⟩
  obtain rfl : u = 0 := Subsingleton.elim _ _
  have hemb : ((cfg0.win 7).blk t).view.emb (ix2 p (0 : Fin 1)) = (ix2 (vox t p) (0 : Fin 1) : S200000x1.Idx) :=
    funext fun a => Fin.ext (by
      match a with
      | ⟨0, _⟩ => show win0_7.index t (0 : Fin 2) * 4000 + 1 * p.val = t.val * 4000 + p.val; rw [e0]; omega
      | ⟨1, _⟩ => show win0_7.index t (1 : Fin 2) * 1 + 1 * 0 = 0; rw [e1])
  show k0_pay1 (F := Ideal) (k0_pay2 (F := Ideal) (iblk m c 0 t) (iblk m c 1 t) (iblk m c 2 t) (iblk m c 3 t)) (iblk m c 4 t)
      (iblk m c 5 t) (iblk m c 6 t) (ix2 p (0 : Fin 1))
    = result m c (((cfg0.win 7).blk t).view.emb (ix2 p (0 : Fin 1)))
  rw [hemb]
  have hk : InRange ((iblk m c 1 t : IVec S4000x1 32) (ix2 p (0 : Fin 1))) := by
    rw [blk_count, V_count_apply]; exact hK _
  have hs : IsSel (iblk m c 2 t : FVec Ideal S128x4 .f32) := by
    rw [blk_sel]; exact fun mm r q => sel_apply m c mm r q
  have hx : ∀ j, IsR ((iblk m c 0 t : FVec Ideal S4000x128 .f32) (ix2 p j)) := fun j => by
    rw [blk_feat, V_feat_apply m c (vox t p) j
      (ix3 (vox t p) ⟨j.val / 4, by have := j.isLt; omega⟩ ⟨j.val % 4, by omega⟩) rfl
      (by show j.val / 4 * 4 + j.val % 4 = j.val; omega)]
    exact hR _
  refine (row_eq (iblk m c 0 t) (iblk m c 1 t) (iblk m c 2 t) (iblk m c 3 t) (iblk m c 4 t) (iblk m c 5 t) (iblk m c 6 t)
    p hk hs hx).trans ?_
  refine voxel_congr ?_ ?_ ?_ ?_ ?_ ?_
  · funext cc mm
    rw [blk_feat]
    exact V_feat_apply m c (vox t p) (lane mm (Fin.castSucc cc)) (ix3 (vox t p) mm (Fin.castSucc cc)) rfl rfl
  · rw [blk_count]; exact V_count_apply m c (vox t p)
  · rw [blk_w1]; exact V_main_arg3 m c
  · funext j
    rw [blk_b1, V_b1]
    exact shapeCast_a_1a_apply _ _ 0 j
  · rw [blk_w2]; exact V_main_arg5 m c
  · rw [blk_b2, V_b2]
    exact shapeCast_a_1a_apply _ _ 0 0

/-- A row of the result lies in its grid point's block. -/
theorem mem_blk (t : Fin cfg0.N) (i : S200000x1.Idx) :
    i ∈ ((cfg0.win 7).blk t).view.set ↔ ∀ a : Fin 2, win0_7.index t a * S4000x1.size a ≤ (i a).val
      ∧ (i a).val < win0_7.index t a * S4000x1.size a + S4000x1.size a := by
  show i ∈ ((View.whole main_v4).slice (win0_7.rect t)).set ↔ _
  rw [View.set_slice_whole, Rect.mem_set_unit]
  exact Iff.rfl

/-- The fifty blocks cover the result. -/
theorem cover (i : S200000x1.Idx) : ∃ t : Fin cfg0.N, (cfg0.win 7).flush t = true ∧ i ∈ ((cfg0.win 7).blk t).view.set := by
  have hi0 : (i 0).val < 200000 := (i 0).isLt
  have hi1 : (i 1).val < 1 := (i 1).isLt
  have hN : cfg0.N = 50 := N_0
  refine ⟨⟨(i 0).val / 4000, by omega⟩, flush0_7 _, ?_⟩
  obtain ⟨-, -, -, -, -, -, -, -, -, -, -, -, -, -, e0, e1⟩ := idx_facts ⟨(i 0).val / 4000, by omega⟩
  rw [mem_blk]
  intro a
  match a with
  | ⟨0, _⟩ =>
    show win0_7.index _ (0 : Fin 2) * 4000 ≤ (i 0).val ∧ (i 0).val < win0_7.index _ (0 : Fin 2) * 4000 + 4000
    rw [e0]; show (i 0).val / 4000 * 4000 ≤ (i 0).val ∧ (i 0).val < (i 0).val / 4000 * 4000 + 4000; omega
  | ⟨1, _⟩ =>
    show win0_7.index _ (1 : Fin 2) * 1 ≤ (i 1).val ∧ (i 1).val < win0_7.index _ (1 : Fin 2) * 1 + 1
    rw [e1]; omega

/-- The result array ends at the voxel function of the argument arrays. -/
theorem final (c : Dev nD) (hR : ∀ i, IsR ((m ((c : Thread nD τ).loc main_arg0) : S200000x32x4.Idx → EReal) i))
    (hK : ∀ i, InRange ((m ((c : Thread nD τ).loc main_arg1) : S200000.Idx → BitVec 32) i)) :
    (dats m 0 c).arrAt 7 cfg0.N = result m c :=
  (dats m 0 c).arrAt_eq_of_cover 7 (result m c) (fun t _ => flushed_eq m c hR hK t) cover

/-- The kernel's run, read: the result at the voxel function of the arguments, the arguments unchanged. -/
theorem run (hR : ∀ (c : Dev nD) i, IsR ((m ((c : Thread nD τ).loc main_arg0) : S200000x32x4.Idx → EReal) i))
    (hK : ∀ (c : Dev nD) i, InRange ((m ((c : Thread nD τ).loc main_arg1) : S200000.Idx → BitVec 32) i)) :
    θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c (hR c) (hK c)), (h c).2⟩) (run_blocks m ρ)

end Cert.Voxel.Blocks

end
-- ==== Proof.RefValue.lean ====
/-
  The reference program read one operation at a time is the function `G` of the specification.

  Each intermediate array of the reference is read at an index given by its coordinates (voxel `n`, point `m`, channel
  `c`, feature `i`, hidden unit `j`) and identified with the quantity of the specification it holds:
  the point count as a real number, the divisor, the density term, the point weight, the weighted sum and the mean, the
  squared weighted deviations and the variance, the variance term, the five features (a concatenation along the columns,
  read piece by piece), the hidden layer after the rectifier, the output unit, and the logistic function written as
  `1 / (1 + exp (-y))`.
-/
import proofs.«132323_j55808805044588_2_alg».proof.Proof.Gen.ReferenceIdeal.Read
import proofs.«132323_j55808805044588_2_alg».proof.Proof.Spec
import Idealize.ShloMosaic.Lib.ValueIdx
import Idealize.ShloMosaic.Lib.Pipeline.Value
import Idealize.ShloMosaic.Lib.IdealHost
import Idealize.ShloMosaic.PureOps.Ideal.Laws

noncomputable section

open scoped BigOperators

namespace Cert.Voxel

open Cert.ReferenceIdeal Cert.ReferenceIdeal.Gen Cert.ReferenceIdeal.Read Idealize.ShloMosaic Idealize.ShloMosaic.ValueIdx

variable (a0 : (⟨S200000x32x4, .f32⟩ : BufTy).Contents (Elt Ideal)) (a1 : (⟨S200000, .i32⟩ : BufTy).Contents (Elt Ideal))
  (a3 : (⟨S5x16, .f32⟩ : BufTy).Contents (Elt Ideal)) (a4 : (⟨S16, .f32⟩ : BufTy).Contents (Elt Ideal))
  (a5 : (⟨S16x1, .f32⟩ : BufTy).Contents (Elt Ideal)) (a6 : (⟨S1, .f32⟩ : BufTy).Contents (Elt Ideal))

/-! ## The point count, the divisor, the density term -/

/-- The converted point count. -/
theorem v0_at (n : Fin 200000) : val_main_v0 (F := Ideal) a1 (ix1 n) = cnt (a1 (ix1 n)) := rfl

/-- The divisor: the larger of one and the point count. -/
theorem v14_at (n : Fin 200000) : val_main_v14 (F := Ideal) a1 (ix1 n) = den (a1 (ix1 n)) := by
  rw [val_main_v14_apply, val_main_call1_v1_apply, val_main_call1_v0_apply, val_main_cst_1_apply, v0_at]
  unfold den
  simp only [Ideal.ofBits_def, Ideal.ofBits_one_f32, Ideal.maximumf_def]

/-- The divisor as a column. -/
theorem v15_at (n : Fin 200000) (u : Fin 1) : val_main_v15 (F := Ideal) a1 (ix2 n u) = den (a1 (ix1 n)) := by
  rw [val_main_v15_apply,
    show idx_main_v15 (ix2 n u) = ix1 n from funext fun a => Fin.ext (by match a with | ⟨0, _⟩ => rfl), v14_at]

/-- The density term: the smaller of ten and the point count, over ten. -/
theorem v3_at (n : Fin 200000) : val_main_v3 (F := Ideal) a1 (ix1 n) = pdens (a1 (ix1 n)) := by
  rw [val_main_v3_apply, val_main_v1_apply, val_main_call0_v1_apply, val_main_call0_v0_apply, val_main_cst_apply,
    val_main_v2_apply, val_main_cst_0_apply, v0_at]
  unfold pdens
  simp only [Ideal.ofBits_def, Ideal.minimumf_def, Ideal.hostDivf_def]

/-- The density term as a column. -/
theorem v4_at (n : Fin 200000) (u : Fin 1) : val_main_v4 (F := Ideal) a1 (ix2 n u) = pdens (a1 (ix1 n)) := by
  rw [val_main_v4_apply,
    show idx_main_v4 (ix2 n u) = ix1 n from funext fun a => Fin.ext (by match a with | ⟨0, _⟩ => rfl), v3_at]

/-! ## The point weight -/

/-- The weight of point `m` of voxel `n`: the comparison of the point's number with the count, converted. -/
theorem v12_at (n : Fin 200000) (m : Fin 32) : val_main_v12 (F := Ideal) a1 (ix2 n m) = wt (a1 (ix1 n)) m := by
  rw [val_main_v12_apply, val_main_v11_apply, val_main_v9_apply, val_main_v7_apply, val_main_v6_apply,
    val_main_v10_apply, val_main_v8_apply,
    show idx_main_v8 (idx_main_v10 (ix2 n m)) = ix1 n from funext fun a => Fin.ext (by match a with | ⟨0, _⟩ => rfl)]
  rfl

theorem v13_at (n : Fin 200000) (m : Fin 32) (u : Fin 1) :
    val_main_v13 (F := Ideal) a1 (ix3 n m u) = wt (a1 (ix1 n)) m := by
  rw [val_main_v13_apply,
    show idx_main_v13 (ix3 n m u) = ix2 n m from
      funext fun a => Fin.ext (by match a with | ⟨0, _⟩ => rfl | ⟨1, _⟩ => rfl), v12_at]

/-- The weight spread over the three channels. -/
theorem v16_at (n : Fin 200000) (m : Fin 32) (c : Fin 3) :
    val_main_v16 (F := Ideal) a1 (ix3 n m c) = wt (a1 (ix1 n)) m := by
  rw [val_main_v16_apply,
    show idx_main_v16 (ix3 n m c) = ix3 n m (0 : Fin 1) from
      funext fun a => Fin.ext (by match a with | ⟨0, _⟩ => rfl | ⟨1, _⟩ => rfl | ⟨2, _⟩ => rfl), v13_at]

theorem v24_at (n : Fin 200000) (m : Fin 32) (c : Fin 3) :
    val_main_v24 (F := Ideal) a1 (ix3 n m c) = wt (a1 (ix1 n)) m := by
  rw [val_main_v24_apply,
    show idx_main_v24 (ix3 n m c) = ix3 n m (0 : Fin 1) from
      funext fun a => Fin.ext (by match a with | ⟨0, _⟩ => rfl | ⟨1, _⟩ => rfl | ⟨2, _⟩ => rfl), v13_at]

/-! ## The mean -/

/-- The first three channels of the points. -/
theorem v5_at (n : Fin 200000) (m : Fin 32) (c : Fin 3) :
    val_main_v5 (F := Ideal) a0 (ix3 n m c) = a0 (ix3 n m c.castSucc) := by
  rw [val_main_v5_apply,
    show idx_main_v5 (ix3 n m c) = ix3 n m c.castSucc from
      funext fun a => Fin.ext (by match a with | ⟨0, _⟩ => rfl | ⟨1, _⟩ => rfl | ⟨2, _⟩ => rfl)]

theorem v17_at (n : Fin 200000) (m : Fin 32) (c : Fin 3) :
    val_main_v17 (F := Ideal) a0 a1 (ix3 n m c) = a0 (ix3 n m c.castSucc) * wt (a1 (ix1 n)) m := by
  rw [val_main_v17_apply, v5_at, v16_at]
  rfl

/-- The weighted sum of a channel over the points. -/
theorem v18_at (n : Fin 200000) (c : Fin 3) :
    val_main_v18 (F := Ideal) a0 a1 (ix2 n c) = ∑ m : Fin 32, a0 (ix3 n m c.castSucc) * wt (a1 (ix1 n)) m := by
  rw [val_main_v18_apply, val_main_cst_2_apply]
  simp only [Ideal.ofBits_def, Ideal.ofBits_zero_f32, zero_add]
  refine Finset.sum_congr rfl fun m _ => ?_
  rw [show idx_main_v18 (ix2 n c) m = ix3 n m c from
      funext fun a => Fin.ext (by match a with | ⟨0, _⟩ => rfl | ⟨1, _⟩ => rfl | ⟨2, _⟩ => rfl), v17_at]

theorem v19_at (n : Fin 200000) (c : Fin 3) : val_main_v19 (F := Ideal) a1 (ix2 n c) = den (a1 (ix1 n)) := by
  rw [val_main_v19_apply,
    show idx_main_v19 (ix2 n c) = ix2 n (0 : Fin 1) from
      funext fun a => Fin.ext (by match a with | ⟨0, _⟩ => rfl | ⟨1, _⟩ => rfl), v15_at]

/-- The mean of channel `c` of voxel `n`. -/
theorem v20_at (n : Fin 200000) (c : Fin 3) :
    val_main_v20 (F := Ideal) a0 a1 (ix2 n c) = mean (fun m => a0 (ix3 n m c.castSucc)) (a1 (ix1 n)) := by
  rw [val_main_v20_apply, v18_at, v19_at]
  rfl

/-! ## The variance -/

/-- The mean spread over the points. -/
theorem v22_at (n : Fin 200000) (m : Fin 32) (c : Fin 3) :
    val_main_v22 (F := Ideal) a0 a1 (ix3 n m c) = mean (fun m => a0 (ix3 n m c.castSucc)) (a1 (ix1 n)) := by
  rw [val_main_v22_apply, val_main_v21_apply,
    show idx_main_v21 (idx_main_v22 (ix3 n m c)) = ix2 n c from
      funext fun a => Fin.ext (by match a with | ⟨0, _⟩ => rfl | ⟨1, _⟩ => rfl), v20_at]

/-- The weighted deviation of a point from the mean. -/
theorem v25_at (n : Fin 200000) (m : Fin 32) (c : Fin 3) :
    val_main_v25 (F := Ideal) a0 a1 (ix3 n m c)
      = (a0 (ix3 n m c.castSucc) - mean (fun m => a0 (ix3 n m c.castSucc)) (a1 (ix1 n))) * wt (a1 (ix1 n)) m := by
  rw [val_main_v25_apply, val_main_v23_apply, v5_at, v22_at, v24_at]
  rfl

/-- The sum of the squared weighted deviations. -/
theorem v27_at (n : Fin 200000) (c : Fin 3) :
    val_main_v27 (F := Ideal) a0 a1 (ix2 n c)
      = ∑ m : Fin 32,
          ((a0 (ix3 n m c.castSucc) - mean (fun m => a0 (ix3 n m c.castSucc)) (a1 (ix1 n))) * wt (a1 (ix1 n)) m)
            * ((a0 (ix3 n m c.castSucc) - mean (fun m => a0 (ix3 n m c.castSucc)) (a1 (ix1 n))) * wt (a1 (ix1 n)) m) := by
  rw [val_main_v27_apply, val_main_cst_3_apply]
  simp only [Ideal.ofBits_def, Ideal.ofBits_zero_f32, zero_add]
  refine Finset.sum_congr rfl fun m _ => ?_
  rw [show idx_main_v27 (ix2 n c) m = ix3 n m c from
      funext fun a => Fin.ext (by match a with | ⟨0, _⟩ => rfl | ⟨1, _⟩ => rfl | ⟨2, _⟩ => rfl),
    val_main_v26_apply, v25_at]
  rfl

theorem v28_at (n : Fin 200000) (c : Fin 3) : val_main_v28 (F := Ideal) a1 (ix2 n c) = den (a1 (ix1 n)) := by
  rw [val_main_v28_apply,
    show idx_main_v28 (ix2 n c) = ix2 n (0 : Fin 1) from
      funext fun a => Fin.ext (by match a with | ⟨0, _⟩ => rfl | ⟨1, _⟩ => rfl), v15_at]

/-- The variance of channel `c` of voxel `n`. -/
theorem v29_at (n : Fin 200000) (c : Fin 3) :
    val_main_v29 (F := Ideal) a0 a1 (ix2 n c) = var (fun m => a0 (ix3 n m c.castSucc)) (a1 (ix1 n)) := by
  rw [val_main_v29_apply, v27_at, v28_at]
  rfl

/-! ## The variance term -/

/-- The three variances added. -/
theorem v30_at (n : Fin 200000) :
    val_main_v30 (F := Ideal) a0 a1 (ix1 n) = ∑ c : Fin 3, var (fun m => a0 (ix3 n m c.castSucc)) (a1 (ix1 n)) := by
  rw [val_main_v30_apply, val_main_cst_4_apply]
  simp only [Ideal.ofBits_def, Ideal.ofBits_zero_f32, zero_add]
  refine Finset.sum_congr rfl fun c _ => ?_
  rw [show idx_main_v30 (ix1 n) c = ix2 n c from
      funext fun a => Fin.ext (by match a with | ⟨0, _⟩ => rfl | ⟨1, _⟩ => rfl), v29_at]

/-- The variance term: the exponential of minus one half of the mean of the three variances. -/
theorem v36_at (n : Fin 200000) (u : Fin 1) :
    val_main_v36 (F := Ideal) a0 a1 (ix2 n u) = pvar fun c => var (fun m => a0 (ix3 n m c.castSucc)) (a1 (ix1 n)) := by
  rw [val_main_v36_apply, val_main_v35_apply, val_main_v34_apply, val_main_cst_6_apply, val_main_v33_apply,
    val_main_v31_apply,
    show idx_main_v31 (ix2 n u) = ix1 n from funext fun a => Fin.ext (by match a with | ⟨0, _⟩ => rfl), v30_at,
    val_main_v32_apply, val_main_cst_5_apply]
  rfl

/-! ## The five features: a concatenation along the columns, read piece by piece -/

/-- Column 0 is the density term (the first piece, one column wide). -/
theorem v37_at0 (n : Fin 200000) :
    val_main_v37 (F := Ideal) a0 a1 (ix2 n (0 : Fin 5)) = pdens (a1 (ix1 n)) := by
  unfold val_main_v37
  refine Eq.trans (concatenate_apply_piece _ _ _ (ix2 n (0 : Fin 5)) 0 (by show (0 : Nat) < 3; omega) S200000x1
    (val_main_v4 (F := Ideal) a1) rfl rfl 0 rfl (ix2 n (0 : Fin 1)) ?_ rfl) (v4_at a1 n 0)
  intro b hb
  match b, hb with
  | ⟨0, _⟩, _ => rfl
  | ⟨1, _⟩, hb => exact absurd rfl hb

/-- Column 1 is the variance term (the second piece, one column wide, after one column). -/
theorem v37_at1 (n : Fin 200000) :
    val_main_v37 (F := Ideal) a0 a1 (ix2 n (1 : Fin 5))
      = pvar fun c => var (fun m => a0 (ix3 n m c.castSucc)) (a1 (ix1 n)) := by
  unfold val_main_v37
  refine Eq.trans (concatenate_apply_piece _ _ _ (ix2 n (1 : Fin 5)) 1 (by show (1 : Nat) < 3; omega) S200000x1
    (val_main_v36 (F := Ideal) a0 a1) rfl rfl 1 rfl (ix2 n (0 : Fin 1)) ?_ rfl) (v36_at a0 a1 n 0)
  intro b hb
  match b, hb with
  | ⟨0, _⟩, _ => rfl
  | ⟨1, _⟩, hb => exact absurd rfl hb

/-- Column `2 + c` is the mean of channel `c` (the third piece, three columns wide, after two columns). -/
theorem v37_at2 (n : Fin 200000) (c : Fin 3) (h : 2 + c.val < 5) :
    val_main_v37 (F := Ideal) a0 a1 (ix2 n (⟨2 + c.val, h⟩ : Fin 5))
      = mean (fun m => a0 (ix3 n m c.castSucc)) (a1 (ix1 n)) := by
  unfold val_main_v37
  refine Eq.trans (concatenate_apply_piece _ _ _ (ix2 n (⟨2 + c.val, h⟩ : Fin 5)) 2 (by show (2 : Nat) < 3; omega) S200000x3
    (val_main_v20 (F := Ideal) a0 a1) rfl rfl 2 rfl (ix2 n c) ?_ rfl) (v20_at a0 a1 n c)
  intro b hb
  match b, hb with
  | ⟨0, _⟩, _ => rfl
  | ⟨1, _⟩, hb => exact absurd rfl hb

/-- The five features of voxel `n`. -/
theorem v37_at (n : Fin 200000) (i : Fin 5) :
    val_main_v37 (F := Ideal) a0 a1 (ix2 n i)
      = feats (pdens (a1 (ix1 n))) (pvar fun c => var (fun m => a0 (ix3 n m c.castSucc)) (a1 (ix1 n)))
          (fun c => mean (fun m => a0 (ix3 n m c.castSucc)) (a1 (ix1 n))) i := by
  match i with
  | ⟨0, _⟩ => exact v37_at0 a0 a1 n
  | ⟨1, _⟩ => exact v37_at1 a0 a1 n
  | ⟨2, _⟩ => exact v37_at2 a0 a1 n 0 (by decide)
  | ⟨3, _⟩ => exact v37_at2 a0 a1 n 1 (by decide)
  | ⟨4, _⟩ => exact v37_at2 a0 a1 n 2 (by decide)

/-! ## The perceptron and the logistic function -/

/-- The hidden layer before the bias: the features against a column of the first weight matrix. -/
theorem v38_at (n : Fin 200000) (j : Fin 16) :
    val_main_v38 (F := Ideal) a0 a1 a3 (ix2 n j)
      = ∑ i : Fin 5, feats (pdens (a1 (ix1 n))) (pvar fun c => var (fun m => a0 (ix3 n m c.castSucc)) (a1 (ix1 n)))
          (fun c => mean (fun m => a0 (ix3 n m c.castSucc)) (a1 (ix1 n))) i * a3 (ix2 i j) := by
  rw [val_main_v38_apply]
  refine Finset.sum_congr rfl fun i _ => ?_
  rw [show lidx_main_v38 (ix2 n j) i = ix2 n i from
      funext fun a => Fin.ext (by match a with | ⟨0, _⟩ => rfl | ⟨1, _⟩ => rfl),
    show ridx_main_v38 (ix2 n j) i = ix2 i j from
      funext fun a => Fin.ext (by match a with | ⟨0, _⟩ => rfl | ⟨1, _⟩ => rfl), v37_at]

/-- The hidden layer: bias added, negative values replaced by zero. -/
theorem v42_at (n : Fin 200000) (j : Fin 16) :
    val_main_v42 (F := Ideal) a0 a1 a3 a4 (ix2 n j)
      = max ((∑ i : Fin 5, feats (pdens (a1 (ix1 n)))
          (pvar fun c => var (fun m => a0 (ix3 n m c.castSucc)) (a1 (ix1 n)))
          (fun c => mean (fun m => a0 (ix3 n m c.castSucc)) (a1 (ix1 n))) i * a3 (ix2 i j)) + a4 (ix1 j)) 0 := by
  rw [val_main_v42_apply, val_main_v41_apply, v38_at, val_main_v40_apply, val_main_v39_apply,
    show idx_main_v39 (idx_main_v40 (ix2 n j)) = ix1 j from funext fun a => Fin.ext (by match a with | ⟨0, _⟩ => rfl),
    val_main_call2_v0_apply, val_main_call2_cst_apply]
  simp only [Ideal.ofBits_def, Ideal.ofBits_zero_f32, Ideal.maximumf_def, Ideal.addf_def]

/-- The output unit: the hidden layer against the second weight matrix, bias added. -/
theorem v46_at (n : Fin 200000) :
    val_main_v46 (F := Ideal) a0 a1 a3 a4 a5 a6 (ix2 n (0 : Fin 1))
      = (∑ j : Fin 16, max ((∑ i : Fin 5, feats (pdens (a1 (ix1 n)))
          (pvar fun c => var (fun m => a0 (ix3 n m c.castSucc)) (a1 (ix1 n)))
          (fun c => mean (fun m => a0 (ix3 n m c.castSucc)) (a1 (ix1 n))) i * a3 (ix2 i j)) + a4 (ix1 j)) 0
            * a5 (ix2 j (0 : Fin 1))) + a6 (ix1 (0 : Fin 1)) := by
  rw [val_main_v46_apply, val_main_v43_apply, val_main_v45_apply, val_main_v44_apply,
    show idx_main_v44 (idx_main_v45 (ix2 n (0 : Fin 1))) = ix1 (0 : Fin 1) from
      funext fun a => Fin.ext (by match a with | ⟨0, _⟩ => rfl)]
  simp only [Ideal.addf_def]
  refine congrArg (· + a6 (ix1 (0 : Fin 1))) (Finset.sum_congr rfl fun j _ => ?_)
  rw [show lidx_main_v43 (ix2 n (0 : Fin 1)) j = ix2 n j from
      funext fun a => Fin.ext (by match a with | ⟨0, _⟩ => rfl | ⟨1, _⟩ => rfl),
    show ridx_main_v43 (ix2 n (0 : Fin 1)) j = ix2 j (0 : Fin 1) from
      funext fun a => Fin.ext (by match a with | ⟨0, _⟩ => rfl | ⟨1, _⟩ => rfl), v42_at]

/-- The result: one over one plus the exponential of minus the output unit, which is the logistic function of it. -/
theorem v52_at (n : Fin 200000) :
    val_main_v52 (F := Ideal) a0 a1 a3 a4 a5 a6 (ix2 n (0 : Fin 1))
      = voxel (fun c m => a0 (ix3 n m c.castSucc)) (a1 (ix1 n)) a3 (fun j => a4 (ix1 j)) a5 (a6 (ix1 (0 : Fin 1))) := by
  rw [val_main_v52_apply, val_main_v51_apply, val_main_cst_8_apply, val_main_v50_apply, val_main_v49_apply,
    val_main_cst_7_apply, val_main_v48_apply, val_main_v47_apply, v46_at]
  simp only [Ideal.ofBits_def, Ideal.ofBits_one_f32]
  rfl

/-- The reference program's result is the function of the specification. -/
theorem ref_eq : val_main_v52 (F := Ideal) a0 a1 a3 a4 a5 a6 = G a0 a1 a3 a4 a5 a6 := by
  funext i
  obtain ⟨n, u, rfl⟩ : ∃ (n : Fin 200000) (u : Fin 1), i = ix2 n u := ⟨i 0, i 1, eq_ix2 i⟩
  obtain rfl : u = 0 := Subsingleton.elim _ _
  rw [v52_at]
  rfl

end Cert.Voxel

end
-- ==== Proof.LibFinite.lean ====
/-
  A printed finiteness precondition read back. `jnp.all(|x| < +∞)` prints as a reduction by `and`, from the constant 1, of
  the comparison of `|x|` with the broadcast pattern of `+∞`; when that reduction is 1, every entry of `x` is a real
  number: an extended real whose absolute value `max a (-a)` is below `⊤` is neither infinity.
-/
import Idealize.ShloMosaic.Lib.ReduceAll
import Idealize.ShloMosaic.Lib.ValueIdx
import Idealize.ShloMosaic.PureOps.Ideal.Laws
import proofs.«132323_j55808805044588_2_alg».proof.Proof.LibReal
import proofs.«132323_j55808805044588_2_alg».proof.Proof.LibColumn

noncomputable section

namespace Cert.LibFinite

open Idealize.ShloMosaic Cert.LibReal

/-- The shape of rank zero has one index. -/
instance : Subsingleton (⟨0, ![]⟩ : Shape).Idx := ⟨fun _ _ => funext fun d => d.elim0⟩

/-- An extended real whose absolute value compares below the pattern of `+∞` is a real number. -/
theorem isR_of_abs_lt_inf (a : EReal)
    (h : Ideal.cmp .olt (max a (-a)) (Ideal.ofBits .f32 0x7F800000#32) = 1#1) : IsR a := by
  have htop : Ideal.ofBits .f32 0x7F800000#32 = ⊤ := by simp [Ideal.ofBits, Ideal.ieee]
  rw [htop] at h
  unfold Ideal.cmp at h
  have hlt : max a (-a) < ⊤ := by
    by_contra hn
    simp [hn] at h
  rw [max_lt_iff] at hlt
  induction a using EReal.rec with
  | bot => simp at hlt
  | coe r => exact ⟨r, rfl⟩
  | top => simp at hlt

/-- `jnp.all(|x| < +∞)` being 1 makes every entry of `x` a real number. -/
theorem isR_of_all_finite {s : Shape} {axes : List (Fin s.rank)} (x : FVec Ideal s .f32)
    (bc : (⟨0, ![]⟩ : Shape).BroadcastsInDim s (![] : Fin 0 → Fin s.rank)) (h : s.ReducesTo axes ⟨0, ![]⟩)
    (hu : 0 < (⟨0, ![]⟩ : Shape).numel) (j : (⟨0, ![]⟩ : Shape).Idx)
    (e : Host.reduce IntOp.andi
        (cmpf .olt (Host.absf x) (broadcastInDim s ![] bc (constant (F := Ideal) ⟨0, ![]⟩ .f32 0x7F800000#32)))
        (constantI ⟨0, ![]⟩ 1 1#1) h hu j = 1#1)
    (i : s.Idx) : IsR (x i) := by
  have hi := Host.reduce_andi_all _ _ h hu j e i
  rw [ValueIdx.cmpf_apply, Cert.LibColumn.broadcastInDim_scalar_apply] at hi
  exact isR_of_abs_lt_inf (x i) hi

end Cert.LibFinite

end
-- ==== Proof.PreRead.lean ====
/-
  The printed precondition read back.

  The precondition is the conjunction of six `all` reductions: the absolute values of the entries of the five real
  arrays compare below the pattern of `+∞`, and every point count `k` satisfies `k ≥ 0` and `k ≤ 32` as signed
  words. When the conjunction is 1 each conjunct is 1; the first says every entry of the points array is a real number,
  the last that every point count lies between 0 and 32.
-/
import proofs.«132323_j55808805044588_2_alg».proof.Pre_finite_inputs
import proofs.«132323_j55808805044588_2_alg».proof.Proof.Gen.Pre_finite_inputs
import proofs.«132323_j55808805044588_2_alg».proof.Proof.LibFinite
import proofs.«132323_j55808805044588_2_alg».proof.Proof.Lanes
import Idealize.ShloMosaic.Lib.ReduceAll

noncomputable section

namespace Cert.Voxel

open Idealize.ShloMosaic Idealize.ShloMosaic.ValueIdx Cert.LibReal Cert.Pre_finite_inputs Cert.Pre_finite_inputs.Facts

/-- The word 0 read signed is 0, the word 32 read signed is 32. -/
theorem toInt_zero_word : (0#32 : BitVec 32).toInt = 0 := by decide
theorem toInt_32_word : (32#32 : BitVec 32).toInt = 32 := by decide

/-- Under the printed precondition every entry of the points array is a real number and every point count is between
    0 and 32. -/
theorem pre_read [Cert.Pre_finite_inputs.Facts]
    (a0 : FVec Ideal S200000x32x4 .f32) (a1 : IVec S200000 32) (a2 : IVec S200000x4 32) (a3 : FVec Ideal S5x16 .f32)
    (a4 : FVec Ideal S16 .f32) (a5 : FVec Ideal S16x1 .f32) (a6 : FVec Ideal S1 .f32)
    (h : Cert.Pre_finite_inputs.fn (F := Ideal) a0 a1 a2 a3 a4 a5 a6 = fun _ => 1#1) :
    (∀ i, IsR (a0 i)) ∧ (∀ i, InRange (a1 i)) := by
  have h0 := congrFun h ix0
  dsimp only [Cert.Pre_finite_inputs.fn, Cert.Pre_finite_inputs.fn_part1] at h0
  -- the conjunction, split from the outside in
  obtain ⟨h23, h29⟩ := IntOp.andi_eq_one.1 h0
  obtain ⟨h18, _⟩ := IntOp.andi_eq_one.1 h23
  obtain ⟨h13, _⟩ := IntOp.andi_eq_one.1 h18
  obtain ⟨h8, _⟩ := IntOp.andi_eq_one.1 h13
  obtain ⟨h3, _⟩ := IntOp.andi_eq_one.1 h8
  refine ⟨fun i => Cert.LibFinite.isR_of_all_finite a0 _ _ _ ix0 h3 i, fun i => ?_⟩
  -- the range of the point count: both comparisons hold at every voxel
  have hi : IntOp.andi
      (IntOp.cmpi .sge (a1 i) (broadcastInDim S200000 ![] bcast_S_S200000 (constantI S_ 32 0#32) i))
      (IntOp.cmpi .sle (a1 i) (broadcastInDim S200000 ![] bcast_S_S200000 (constantI S_ 32 32#32) i)) = 1#1 :=
    Host.reduce_andi_all _ _ _ _ ix0 h29 i
  obtain ⟨hge, hle⟩ := IntOp.andi_eq_one.1 hi
  have e0 := IntOp.cmpi_sge.1 hge
  have e1 := IntOp.cmpi_sle.1 hle
  rw [Cert.LibColumn.broadcastInDim_scalar_apply, constantI_apply, toInt_zero_word] at e0
  rw [Cert.LibColumn.broadcastInDim_scalar_apply, constantI_apply, toInt_32_word] at e1
  exact ⟨e0, e1⟩

end Cert.Voxel

end
-- ==== Proof.lean ====
/-
  The voxel occupancy kernel against its reference, over the extended reals.

  For each of 200000 voxels — 32 points of 4 channels, the first `k` points valid — both programs compute the mean and
  the variance of the x, y, z channels over the valid points, the terms `exp (-var_mean / 2)` and `min 10 k / 10`, and the
  logistic function of a perceptron 5 → 16 (ReLU) → 1 of these. The kernel works on rows of 128 lanes (lane `4 m + r` is
  channel `r` of point `m`), 4000 voxels per grid point: it masks the lanes of invalid points by `lane < 4 k`, takes the
  channel sums as products with a constant 128 × 4 selection matrix, and the variance in one pass,
  `Σ (x μ)² / d - (Σ x μ / d)²`; the reference masks points by `m < k` and takes the variance as the mean of the squared
  weighted deviations. The two agree when the features are real numbers and the point counts lie between 0 and 32 —
  the stated precondition: then `4 k` does not wrap, the lane mask is the point mask, and the number of valid points is
  the divisor `max 1 k` (or no point is valid), which is what the one-pass form needs.

  The kernel's result array is read block by block off its generated frame run (KernelRow, KernelVoxel, Blocks,
  KernelValue); the reference's off its generated run (RefValue); both are the one function `Cert.Voxel.G` of the
  argument arrays (Spec). The algebra is in Stats and Lanes, the precondition read back in PreRead.
-/
import proofs.«132323_j55808805044588_2_alg».proof.Defs
import proofs.«132323_j55808805044588_2_alg».proof.Proof.Gen.Kernel
import proofs.«132323_j55808805044588_2_alg».proof.Proof.Gen.Kernel.Skeleton
import proofs.«132323_j55808805044588_2_alg».proof.Proof.Gen.Kernel.Launch
import proofs.«132323_j55808805044588_2_alg».proof.Proof.Gen.Kernel.Points
import proofs.«132323_j55808805044588_2_alg».proof.Proof.Gen.Kernel.Frame
import proofs.«132323_j55808805044588_2_alg».proof.Proof.Gen.KernelIdeal
import proofs.«132323_j55808805044588_2_alg».proof.Proof.Gen.KernelIdeal.Skeleton
import proofs.«132323_j55808805044588_2_alg».proof.Proof.Gen.KernelIdeal.Launch
import proofs.«132323_j55808805044588_2_alg».proof.Proof.Gen.KernelIdeal.Points
import proofs.«132323_j55808805044588_2_alg».proof.Proof.Gen.KernelIdeal.Frame
import proofs.«132323_j55808805044588_2_alg».proof.Proof.Gen.ReferenceIdeal
import proofs.«132323_j55808805044588_2_alg».proof.Proof.Gen.Pre_finite_inputs
import proofs.«132323_j55808805044588_2_alg».proof.Proof.Gen.KernelIdeal.Value
import proofs.«132323_j55808805044588_2_alg».proof.Proof.Gen.ReferenceIdeal.Run
import proofs.«132323_j55808805044588_2_alg».proof.Proof.Gen.ReferenceIdeal.Read
import proofs.«132323_j55808805044588_2_alg».proof.Proof.KernelValue
import proofs.«132323_j55808805044588_2_alg».proof.Proof.RefValue
import proofs.«132323_j55808805044588_2_alg».proof.Proof.PreRead
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals. -/
theorem preserves : Cert.preserves_Kernel_KernelIdeal := trivial

/-- Both programs end with the result array at the voxel function of the arguments. -/
theorem algebraic : Cert.algebraic_KernelIdeal_ReferenceIdeal := by
  intro m ρ m' ρ' hpre hagree
  have hp := fun c : Dev Cert.KernelIdeal.nD => Cert.Voxel.pre_read _ _ _ _ _ _ _ (hpre c)
  refine ⟨fun c => Cert.Voxel.Blocks.result m c,
    Cert.Voxel.Blocks.run m ρ (fun c => (hp c).1) (fun c => (hp c).2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v52_eq, Cert.Voxel.ref_eq]
  obtain ⟨h0, h1, -, h3, h4, h5, h6⟩ := hagree c
  rw [h0, h1, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
